-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : FVec F S16384x3 .f32) (main_arg1 : FVec F S16384x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S16384x3 : Shape := ⟨2, ![16384, 3]⟩
abbrev S3x16384 : Shape := ⟨2, ![3, 16384]⟩
abbrev S_ : Shape := ⟨0, ![]⟩
abbrev S8x16384 : Shape := ⟨2, ![8, 16384]⟩
abbrev S16384x1 : Shape := ⟨2, ![16384, 1]⟩
abbrev S1x16384 : Shape := ⟨2, ![1, 16384]⟩
abbrev S1024x3 : Shape := ⟨2, ![1024, 3]⟩
abbrev S8x1024 : Shape := ⟨2, ![8, 1024]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S16384 : Shape := ⟨1, ![16384]⟩
abbrev S32768 : Shape := ⟨1, ![32768]⟩

abbrev nBuf : Space → Nat
  | .hbm => 15
  | .vmem => 9
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S3x16384, .f32⟩
  | .hbm, ⟨3, _⟩ => ⟨S_, .i32⟩
  | .hbm, ⟨4, _⟩ => ⟨S_, .f32⟩
  | .hbm, ⟨5, _⟩ => ⟨S8x16384, .f32⟩
  | .hbm, ⟨6, _⟩ => ⟨S16384x1, .f32⟩
  | .hbm, ⟨7, _⟩ => ⟨S1x16384, .f32⟩
  | .hbm, ⟨8, _⟩ => ⟨S16384, .f32⟩
  | .hbm, ⟨9, _⟩ => ⟨S16384, .f32⟩
  | .hbm, ⟨10, _⟩ => ⟨S32768, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S8x1024, .f32⟩
  | .local _ .vmem, ⟨3, _⟩ => ⟨S8x1024, .f32⟩
  | .local _ .vmem, ⟨4, _⟩ => ⟨S1024x1, .f32⟩
  | .local _ .vmem, ⟨5, _⟩ => ⟨S1024x1, .f32⟩
  | .local _ .vmem, ⟨6, _⟩ => ⟨S1x16384, .f32⟩
  | .local _ .vmem, ⟨7, _⟩ => ⟨S1024x1, .f32⟩
  | .local _ .vmem, ⟨8, _⟩ => ⟨S1x16384, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c1024_i32 : BitVec 32 := 1024#32
  let v53 : BitVec 32 := Scalar.muli arg1 c1024_i32
  v53
def k0_off1 (i : grid0.Coords) : Fin 2 → Nat :=
  let c0_13 : Index := 0#32
  let arg1 : BitVec 32 := BitVec.ofNat 32 (i 1).val
  let c1024_i32 : BitVec 32 := 1024#32
  let v53 : BitVec 32 := Scalar.muli arg1 c1024_i32
  let v54 : BitVec 32 := v53
  let v55 : Index := Scalar.indexCast v54
  ![0, v55.toNat]
def k0_cond3 (i : grid0.Coords) : BitVec 1 :=
  let arg1 : BitVec 32 := BitVec.ofNat 32 (i 1).val
  let c15_i32 : BitVec 32 := 15#32
  let v62 : BitVec 1 := Scalar.cmpi .eq arg1 c15_i32
  let v63 : BitVec 32 := Scalar.extui v62
  let c0_i32_15 : BitVec 32 := 0#32
  let v64 : BitVec 1 := Scalar.cmpi .ne v63 c0_i32_15
  v64

def k0_cond4 (i : grid0.Coords) : BitVec 1 :=
  let arg0 : BitVec 32 := BitVec.ofNat 32 (i 0).val
  let c15_i32_16 : BitVec 32 := 15#32
  let v65 : BitVec 1 := Scalar.cmpi .eq arg0 c15_i32_16
  let arg1 : BitVec 32 := BitVec.ofNat 32 (i 1).val
  let c15_i32_17 : BitVec 32 := 15#32
  let v66 : BitVec 1 := Scalar.cmpi .eq arg1 c15_i32_17
  let v67 : BitVec 1 := Scalar.andi v65 v66
  let v68 : BitVec 32 := Scalar.extui v67
  let c0_i32_18 : BitVec 32 := 0#32
  let v69 : BitVec 1 := Scalar.cmpi .ne v68 c0_i32_18
  v69

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  transposes_S16384x3_S3x16384_1_0 : S16384x3.Transposes [1, 0] S3x16384
  pads_S3x16384_S8x16384_050_000 : S3x16384.Pads (![0, 0] : Fin 2 → Nat) ![5, 0] ![0, 0] S8x16384
  h_S_ : 0 < S_.numel
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x3_S1024x3_0_0 : ∀ a, (![0, 0] : Fin 2 → Nat) a + S1024x3.size a ≤ S1024x3.size a
  h_S1024x3 : 0 < S1024x3.numel
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  slices_S8x1024_o0_0_S1x1024 : S8x1024.Slices ![0, 0] S1x1024
  slices_S8x1024_o1_0_S1x1024 : S8x1024.Slices ![1, 0] S1x1024
  slices_S8x1024_o2_0_S1x1024 : S8x1024.Slices ![2, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  h_S1x1024 : 0 < S1x1024.numel
  shapeCasts_S1x1024_S1x1024 : S1x1024.ShapeCasts S1x1024
  shapeCasts_S16384x1_S16384 : S16384x1.ShapeCasts S16384
  shapeCasts_S1x16384_S16384 : S1x16384.ShapeCasts S16384
  concatenates_S16384_S16384_S32768_d0 : Shape.Concatenates [S16384, S16384] S32768 0
  reducesTo_S32768_S_d0 : S32768.ReducesTo [0] S_
  hrank0 : 0 < grid0.rank
  k0_mult1_dvd : ∀ i : grid0.Coords, 1024 ∣ (k0_mult1 i).toNat
  k0_off1_inb : ∀ i : grid0.Coords, ∀ a, (k0_off1 i) a + S1x1024.size a ≤ S1x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S16384x3.size a
  hwx0_0 : ∀ i : grid0.Coords, EltTy.bits .f32 = 32 ∨ (Rect.block (s := S16384x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S8x16384.size a
  hwx0_1 : ∀ i : grid0.Coords, EltTy.bits .f32 = 32 ∨ (Rect.block (s := S8x16384) S8x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16384.size a ≤ S1x16384.size a
  hwx0_3 : ∀ i : grid0.Coords, EltTy.bits .f32 = 32 ∨ (Rect.block (s := S1x16384) S1x16384.size (cc0_transform_3 i) (hinb0_3 i)).WholeWords (EltTy.packing .f32)

variable [Facts₀]

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x16384.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S16384x3 : Shape := ⟨2, ![16384, 3]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S32768 : Shape := ⟨1, ![32768]⟩

abbrev nBuf : Space → Nat
  | .hbm => 31
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x3, .f32⟩
  | .hbm, ⟨3, _⟩ => ⟨S_, .f32⟩
  | .hbm, ⟨4, _⟩ => ⟨S16384, .f32⟩
  | .hbm, ⟨5, _⟩ => ⟨S16384x3, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S1x16384, .f32⟩
  | .hbm, ⟨10, _⟩ => ⟨S16384x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S_, .f32⟩
  | .hbm, ⟨15, _⟩ => ⟨S16384x16384, .f32⟩
  | .hbm, ⟨16, _⟩ => ⟨S16384x16384, .f32⟩
  | .hbm, ⟨17, _⟩ => ⟨S16384x16384, .f32⟩
  | .hbm, ⟨18, _⟩ => ⟨S_, .f32⟩
  | .hbm, ⟨19, _⟩ => ⟨S16384x16384, .f32⟩
  | .hbm, ⟨20, _⟩ => ⟨S16384x16384, .f32⟩
  | .hbm, ⟨21, _⟩ => ⟨S16384x16384, .f32⟩
  | .hbm, ⟨22, _⟩ => ⟨S_, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S32768, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  reducesTo_S16384x16384_S16384_d0 : S16384x16384.ReducesTo [0] S16384
  concatenates_S16384_S16384_S32768_d0 : Shape.Concatenates [S16384, S16384] S32768 0
  reducesTo_S32768_S_d0 : S32768.ReducesTo [0] S_
  dot_S16384x3_S16384x3_S16384x16384_1_1_0_0_n_n_wf : DotDims.WF S16384x3 S16384x3 S16384x16384 [1] [1] [0] [0] [] []

variable [Facts₀]

def dot_S16384x3_S16384x3_S16384x16384_1_1_0_0_n_n : DotDims S16384x3 S16384x3 S16384x16384 where
  lhsContracting := [1]
  rhsContracting := [1]
  lhsNonContracting := [0]
  rhsNonContracting := [0]
  lhsBatch := []
  rhsBatch := []
  wf := dot_S16384x3_S16384x3_S16384x16384_1_1_0_0_n_n_wf

class Facts : Prop extends Facts₀ where

variable [Facts]
-- ==== Proof.Spec.lean ====
/-
  The mathematics both programs compute, over plain functions of natural-number coordinates.

  * A running minimum: `partInf f n` is the infimum of `f 0, …, f (n-1)` on the extended reals (`⊤` for `n = 0`). A minimum
    taken tile by tile is the minimum over the whole range: `partInf f (n + K) = min (partInf f n) (inf of the next K values)`.
  * `clampSqrt z x = √(max x z)` is monotone and fixes `⊤`, so it commutes with every finite infimum: the minimum of the
    clamped roots is the clamped root of the minimum.
  * A fold of `min` from `⊤` over a finite set is that set's infimum, and an infimum over `Fin K` is one over `range K`.
-/
import Idealize.ShloMosaic.PureOps.Ideal

noncomputable section

namespace Cert.Chamfer

open Idealize.ShloMosaic

/-- The infimum of `f` over the naturals below `n`. -/
def partInf (f : ℕ → EReal) (n : ℕ) : EReal := (Finset.range n).inf f

theorem partInf_zero (f : ℕ → EReal) : partInf f 0 = ⊤ := by
  unfold partInf; rw [Finset.range_zero, Finset.inf_empty]

/-- The next `K` values join the running minimum: tile by tile is the whole range. -/
theorem partInf_add (f : ℕ → EReal) (n K : ℕ) :
    partInf f (n + K) = min (partInf f n) ((Finset.range K).inf fun c => f (n + c)) := by
  unfold partInf
  induction K with
  | zero => rw [Finset.range_zero, Finset.inf_empty, Nat.add_zero, min_eq_left le_top]
  | succ K ih =>
    rw [← Nat.add_assoc, Finset.range_add_one, Finset.inf_insert, ih, Finset.range_add_one, Finset.inf_insert]
    exact (min_left_comm _ _ _)

/-- An infimum over `Fin K` of a function of the value is the infimum over `range K`. -/
theorem inf_univ_fin (K : ℕ) (g : ℕ → EReal) :
    (Finset.univ : Finset (Fin K)).inf (fun k => g k.val) = (Finset.range K).inf g := by
  apply le_antisymm
  · exact Finset.le_inf fun c hc =>
      Finset.inf_le (f := fun k : Fin K => g k.val) (Finset.mem_univ ⟨c, Finset.mem_range.mp hc⟩)
  · exact Finset.le_inf fun k _ => Finset.inf_le (Finset.mem_range.mpr k.isLt)

/-- A fold of `min` from `⊤` is the infimum. -/
theorem fold_min_top {ι : Type} [DecidableEq ι] (s : Finset ι) (f : ι → EReal) : s.fold min ⊤ f = s.inf f := by
  induction s using Finset.induction_on with
  | empty => rw [Finset.fold_empty, Finset.inf_empty]
  | insert a s ha ih => rw [Finset.fold_insert ha, Finset.inf_insert, ih]

/-! ## The clamped square root commutes with minima -/

theorem sqrt_mono : Monotone Ideal.sqrt := by
  intro x y hxy
  induction x using EReal.rec with
  | bot => exact bot_le
  | top => rw [top_le_iff.mp hxy]
  | coe r =>
    induction y using EReal.rec with
    | bot => exact absurd hxy (by simp)
    | top => rw [Ideal.sqrt_top]; exact le_top
    | coe s =>
      have hrs : r ≤ s := EReal.coe_le_coe_iff.mp hxy
      rw [Ideal.sqrt_coe, Ideal.sqrt_coe]
      by_cases hr : r < 0
      · rw [if_pos hr]; exact bot_le
      · have hs : ¬ s < 0 := fun h => hr (lt_of_le_of_lt hrs h)
        rw [if_neg hr, if_neg hs]
        exact EReal.coe_le_coe_iff.mpr (Real.sqrt_le_sqrt hrs)

/-- `√(max x z)`: the distance from a squared distance, negative rounding residue clamped away. -/
def clampSqrt (z x : EReal) : EReal := Ideal.sqrt (max x z)

theorem clampSqrt_mono (z : EReal) : Monotone (clampSqrt z) :=
  fun _ _ h => sqrt_mono (max_le_max h le_rfl)

theorem clampSqrt_top (z : EReal) : clampSqrt z ⊤ = ⊤ := by
  unfold clampSqrt; rw [max_eq_left le_top, Ideal.sqrt_top]

theorem clampSqrt_inf {ι : Type} (z : EReal) (s : Finset ι) (f : ι → EReal) :
    clampSqrt z (s.inf f) = s.inf fun k => clampSqrt z (f k) :=
  Finset.comp_inf_eq_inf_comp (clampSqrt z) (fun x y => (clampSqrt_mono z).map_min) (clampSqrt_top z)

end Cert.Chamfer

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.Tile.lean ====
/-
  One tile of the distance matrix, entry by entry.

  The body forms, from a block `x0` of 1024 a-points (rows, 3 coordinates each) and a block `x1` of 1024 b-points laid
  out coordinate-major (row k holds coordinate k of every point; rows 3..7 are padding nobody reads), the 1024 × 1024 tile
      T (r, c) = (|a_r|²) + (|b_c|²) − 2 · (a_r · b_c),
  each norm and the dot product a three-term sum. Its minimum along a row (over c) and along a column (over r) are what
  the two accumulators take in; both are infima over the 1024 entries, the reduction starting from +∞.
-/
import proofs.«126038_j36369783063040_2_alg».proof.Proof.Gen.KernelIdeal.Skeleton
import proofs.«126038_j36369783063040_2_alg».proof.Proof.Spec
import proofs.«126038_j36369783063040_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.Chamfer

open Idealize.ShloMosaic Idealize.ShloMosaic.ValueIdx Cert.KernelIdeal Cert.KernelIdeal.Gen

/-- The word `0x7F800000` is +∞. -/
theorem ofBits_inf : (Ideal.ofBits .f32 0x7F800000#32 : EReal) = ⊤ := by simp [Ideal.ofBits, Ideal.ieee]

/-- The tile's entry from the two blocks' entries: `|a_r|² + |b_c|² − 2 (a_r · b_c)`. -/
def tileEntry (x0 : Vec Ideal S1024x3 .f32) (x1 : Vec Ideal S8x1024 .f32) (r c : Fin 1024) : EReal :=
  (x0 (ix2 r 0) * x0 (ix2 r 0) + x0 (ix2 r 1) * x0 (ix2 r 1) + x0 (ix2 r 2) * x0 (ix2 r 2))
    + (x1 (ix2 0 c) * x1 (ix2 0 c) + x1 (ix2 1 c) * x1 (ix2 1 c) + x1 (ix2 2 c) * x1 (ix2 2 c))
    - Ideal.ofBits .f32 0x40000000#32
      * (x0 (ix2 r 0) * x1 (ix2 0 c) + x0 (ix2 r 1) * x1 (ix2 1 c) + x0 (ix2 r 2) * x1 (ix2 2 c))

/-- The tile the body computes, read at `(r, c)`. -/
theorem pay7_apply (x0 : Vec Ideal S1024x3 .f32) (x1 : Vec Ideal S8x1024 .f32) (r c : Fin 1024) :
    k0_pay7 (F := Ideal) x0 x1 (ix2 r c) = tileEntry x0 x1 r c := by
  unfold k0_pay7 tileEntry
  simp only [subf_apply, addf_apply, mulf_apply, broadcast_apply, shapeCast_self,
    broadcastTo_a1_ab_apply, broadcastTo_1b_ab_apply]
  rw [slice2_axis1_apply (n0 := 1024) (n1 := 3) (m := 1) 0 x0 _ r 0 0 rfl,
    slice2_axis1_apply (n0 := 1024) (n1 := 3) (m := 1) 1 x0 _ r 0 1 rfl,
    slice2_axis1_apply (n0 := 1024) (n1 := 3) (m := 1) 2 x0 _ r 0 2 rfl,
    slice2_axis0_apply (n0 := 8) (n1 := 1024) (m := 1) 0 x1 _ 0 c 0 rfl,
    slice2_axis0_apply (n0 := 8) (n1 := 1024) (m := 1) 1 x1 _ 0 c 1 rfl,
    slice2_axis0_apply (n0 := 8) (n1 := 1024) (m := 1) 2 x1 _ 0 c 2 rfl]
  rfl

/-! ## The tile's minima along a row and along a column -/

/-- Putting column `k` back into the reduced index `r` of a row reduction gives `(r, k)`. -/
theorem lift_row (h : S1024x1024.Reduces [1] S1024) (r : Fin 1024) (k : Fin (S1024x1024.size 1)) :
    h.lift (ix1 r) k = ix2 r (⟨k.val, k.isLt⟩ : Fin 1024) := by
  funext a; apply Fin.ext
  fin_cases a <;> rfl

/-- Putting row `k` back into the reduced index `c` of a column reduction gives `(k, c)`. -/
theorem lift_col (h : S1024x1024.Reduces [0] S1024) (c : Fin 1024) (k : Fin (S1024x1024.size 0)) :
    h.lift (ix1 c) k = ix2 (⟨k.val, k.isLt⟩ : Fin 1024) c := by
  funext a; apply Fin.ext
  fin_cases a <;> rfl

/-- A minimum-reduction along the rows from +∞ is, at row `r`, the infimum of the row's 1024 entries. -/
theorem rowMin_apply (v : FVec Ideal S1024x1024 .f32) (h : S1024x1024.Reduces [1] S1024) (hφ : FKind.Formats .f32)
    (hacc : (0x7F800000#32 : BitVec 32) = FKind.minimumf.neutral .f32 hφ) (r : Fin 1024) :
    multiReduction .minimumf [1] S1024 v 0x7F800000#32 h hφ hacc (ix1 r)
      = (Finset.univ : Finset (Fin 1024)).inf fun c => v (ix2 r c) := by
  refine (multiReduction_minimumf_eq_fold v _ h hφ hacc (ix1 r)).trans ?_
  refine (h.fold_filter_drop_single _ _ v (ix1 r)).trans ?_
  show Finset.fold min (Ideal.ofBits .f32 0x7F800000#32 : EReal) _ _ = _
  rw [ofBits_inf]
  refine (fold_min_top _ _).trans ?_
  exact Finset.inf_congr rfl fun c _ => congrArg v (lift_row h r c)

/-- A minimum-reduction along the columns from +∞ is, at column `c`, the infimum of the column's 1024 entries. -/
theorem colMin_apply (v : FVec Ideal S1024x1024 .f32) (h : S1024x1024.Reduces [0] S1024) (hφ : FKind.Formats .f32)
    (hacc : (0x7F800000#32 : BitVec 32) = FKind.minimumf.neutral .f32 hφ) (c : Fin 1024) :
    multiReduction .minimumf [0] S1024 v 0x7F800000#32 h hφ hacc (ix1 c)
      = (Finset.univ : Finset (Fin 1024)).inf fun r => v (ix2 r c) := by
  refine (multiReduction_minimumf_eq_fold v _ h hφ hacc (ix1 c)).trans ?_
  refine (h.fold_filter_drop_single _ _ v (ix1 c)).trans ?_
  show Finset.fold min (Ideal.ofBits .f32 0x7F800000#32 : EReal) _ _ = _
  rw [ofBits_inf]
  refine (fold_min_top _ _).trans ?_
  exact Finset.inf_congr rfl fun r _ => congrArg v (lift_col h c r)

/-- The tile's row minima. -/
theorem pay8_apply (x0 : Vec Ideal S1024x3 .f32) (x1 : Vec Ideal S8x1024 .f32) (r : Fin 1024) :
    k0_pay8 (F := Ideal) x0 x1 (ix1 r) = (Finset.univ : Finset (Fin 1024)).inf fun c => tileEntry x0 x1 r c := by
  unfold k0_pay8
  refine (rowMin_apply _ _ _ _ r).trans ?_
  exact Finset.inf_congr rfl fun c _ => pay7_apply x0 x1 r c

/-! ## The accumulators' updates and the final clamped roots -/

/-- The row accumulator's update: the old value against the tile's row minimum. -/
theorem pay1_apply (v44 : FVec Ideal S1024 .f32) (v48 : Vec Ideal S1024x1 .f32) (r : Fin 1024) (u : Fin 1) :
    k0_pay1 (F := Ideal) v44 v48 (ix2 r u) = min (v48 (ix2 r u)) (v44 (ix1 r)) := by
  unfold k0_pay1
  simp only [shapeCast_self, minimumf_apply]
  rw [shapeCast_a_a1_apply (a := 1024) v44 _ r u]

/-- The column accumulator's update under the tile: the old slice against the tile's column minimum. -/
theorem pay2_apply (v43 : FVec Ideal S1024x1024 .f32) (v56 : Vec Ideal S1x1024 .f32) (u : Fin 1) (c : Fin 1024) :
    k0_pay2 (F := Ideal) v43 v56 (ix2 u c)
      = min (v56 (ix2 u c)) ((Finset.univ : Finset (Fin 1024)).inf fun r => v43 (ix2 r c)) := by
  unfold k0_pay2
  simp only [shapeCast_self, minimumf_apply]
  rw [shapeCast_a_1a_apply (a := 1024) _ _ u c]
  exact congrArg (min _) (colMin_apply v43 _ _ _ c)

/-- What the row output receives: the clamped root of the row accumulator. -/
theorem pay3_apply (v70 : Vec Ideal S1024x1 .f32) (y : S1024x1.Idx) :
    k0_pay3 (F := Ideal) v70 y = clampSqrt (Ideal.ofBits .f32 0x00000000#32) (v70 y) := rfl

/-- What the column output receives: the clamped root of the column accumulator. -/
theorem pay4_apply (v70 : Vec Ideal S1x16384 .f32) (y : S1x16384.Idx) :
    k0_pay4 (F := Ideal) v70 y = clampSqrt (Ideal.ofBits .f32 0x00000000#32) (v70 y) := rfl

/-- The column accumulator's reset value is +∞ everywhere. -/
theorem pay5_apply (y : S1x16384.Idx) : k0_pay5 (F := Ideal) y = (⊤ : EReal) := by
  unfold k0_pay5
  simp only [shapeCast_self, broadcast_apply]
  exact ofBits_inf

/-- The row accumulator's reset value is +∞ everywhere. -/
theorem pay6_apply (y : S1024x1.Idx) : k0_pay6 (F := Ideal) y = (⊤ : EReal) := by
  unfold k0_pay6
  simp only [shapeCast_self, broadcast_apply]
  exact ofBits_inf

end Cert.Chamfer

end
-- ==== Proof.Pieces.lean ====
/-
  What one grid point's body leaves in the two accumulators and the two outputs, case by case.

  Whatever the case, the body (i) optionally resets an accumulator to +∞, (ii) replaces the row accumulator by its minimum with
  the tile's row minima, (iii) replaces the 1024 columns of the column accumulator under the tile by their minimum with the
  tile's column minima and leaves the other columns alone, and (iv) at the end of a tile row writes the clamped roots of
  the row accumulator to the row output, at the end of the grid those of the column accumulator to the column output.
  The five cases differ only in which of (i) and (iv) happen.
-/
import proofs.«126038_j36369783063040_2_alg».proof.Proof.Gen.KernelIdeal.Frame
import proofs.«126038_j36369783063040_2_alg».proof.Proof.Tile
import Idealize.ShloMosaic.Lib.Pipeline.Value
import Idealize.ShloMosaic.Lib.WritesUnit
import Idealize.ShloMosaic.Lib.Tactic

set_option maxRecDepth 16384

noncomputable section

namespace Cert.Chamfer

open Idealize.ShloMosaic Idealize.ShloMosaic.Tactic Idealize.ShloMosaic.TcCoe Idealize.ShloMosaic.ValueIdx Idealize.SL.Sem
open Cert.KernelIdeal Cert.KernelIdeal.Gen

theorem hz2 : (![0, 0] : Fin 2 → Nat) = fun _ => 0 := funext fun a => by fin_cases a <;> rfl

/-- The tile's minimum along row `r`. -/
def rowTileMin (x0 : Vec Ideal S1024x3 .f32) (x1 : Vec Ideal S8x1024 .f32) (r : Fin 1024) : EReal :=
  (Finset.univ : Finset (Fin 1024)).inf fun c => tileEntry x0 x1 r c

/-- The tile's minimum along column `c`. -/
def colTileMin (x0 : Vec Ideal S1024x3 .f32) (x1 : Vec Ideal S8x1024 .f32) (c : Fin 1024) : EReal :=
  (Finset.univ : Finset (Fin 1024)).inf fun r => tileEntry x0 x1 r c

/-- The row accumulator after the body, from what it held: each row against the tile's minimum along it. -/
def rowNew (x0 : Vec Ideal S1024x3 .f32) (x1 : Vec Ideal S8x1024 .f32) (prev : Vec Ideal S1024x1 .f32) : Vec Ideal S1024x1 .f32 :=
  fun y => min (prev y) (rowTileMin x0 x1 (y 0))

/-- The column accumulator after the body at tile column `j`, from what it held: the columns under the tile against the
    tile's minima along them, the others untouched. -/
def colNew (j : ℕ) (x0 : Vec Ideal S1024x3 .f32) (x1 : Vec Ideal S8x1024 .f32) (prev : Vec Ideal S1x16384 .f32) : Vec Ideal S1x16384 .f32 :=
  fun y => if h : 1024 * j ≤ (y 1).val ∧ (y 1).val < 1024 * j + 1024 then
      min (prev y) (colTileMin x0 x1 (⟨(y 1).val - 1024 * j, by omega⟩ : Fin 1024))
    else prev y

/-- The row update's payload is `rowNew`. -/
theorem pay1_eq_rowNew (x0 : Vec Ideal S1024x3 .f32) (x1 : Vec Ideal S8x1024 .f32) (prev : Vec Ideal S1024x1 .f32) :
    k0_pay1 (F := Ideal) (k0_pay8 (F := Ideal) x0 x1) prev = rowNew x0 x1 prev := by
  funext y
  obtain ⟨r, u, rfl⟩ : ∃ (r : Fin 1024) (u : Fin 1), y = ix2 r u := ⟨y 0, y 1, eq_ix2 y⟩
  exact (pay1_apply (k0_pay8 (F := Ideal) x0 x1) prev r u).trans (congrArg (min (prev (ix2 r u))) (pay8_apply x0 x1 r))

/-- A store of the column update's payload through the 1024 columns from `1024 j`, read at an index: `colNew` of what
    the buffer read before the store. -/
theorem colWrite_apply {sg : RefSig} {κ : Kind} {sp : Space} (v : View sg κ sp S1x16384 .f32) (f : v.ty.Contents (Elt Ideal))
    (off : Fin 2 → ℕ) (inb : ∀ a, off a + S1x1024.size a ≤ S1x16384.size a) (L : List (View.Piece (Elt Ideal) S1x16384 .f32))
    (x0 : Vec Ideal S1024x3 .f32) (x1 : Vec Ideal S8x1024 .f32) (prev : Vec Ideal S1x16384 .f32)
    (hprev : v.read (Elt Ideal) (v.writes (Elt Ideal) f L) = prev)
    (j : ℕ) (hoff : off = ![0, 1024 * j]) (y : S1x16384.Idx) :
    v.read (Elt Ideal) (v.writes (Elt Ideal) f ((⟨Rect.unit (s := S1x16384) off S1x1024.size inb,
        k0_pay2 (F := Ideal) (k0_pay7 (F := Ideal) x0 x1)
          (View.ld (Val := Elt Ideal) prev (Rect.unit (s := S1x16384) off S1x1024.size inb))⟩ : View.Piece (Elt Ideal) S1x16384 .f32) :: L)) y
      = colNew j x0 x1 prev y := by
  unfold colNew
  have hy0 : (y 0).val < 1 := (y 0).isLt
  by_cases h : 1024 * j ≤ (y 1).val ∧ (y 1).val < 1024 * j + 1024
  · rw [dif_pos h]
    refine (View.read_writes_cons_unit_of_mem v f inb _ L y
      (ix2 (0 : Fin 1) (⟨(y 1).val - 1024 * j, by omega⟩ : Fin 1024)) hoff (fun a => ?_)).trans ?_
    · fin_cases a
      · show (y 0).val = 0 + 0; omega
      · show (y 1).val = 1024 * j + ((y 1).val - 1024 * j); omega
    · refine (pay2_apply _ _ 0 _).trans ?_
      congr 1
      · show prev _ = prev y
        subst hoff
        refine congrArg prev (funext fun a => Fin.ext ?_)
        fin_cases a
        · show 0 + 1 * 0 = (y 0).val; omega
        · show 1024 * j + 1 * ((y 1).val - 1024 * j) = (y 1).val; omega
      · exact Finset.inf_congr rfl fun r _ => pay7_apply x0 x1 r _
  · rw [dif_neg h]
    refine (View.read_writes_cons_unit_of_not_mem v f inb _ L y hoff 1 ?_).trans (congrFun hprev y)
    show (y 1).val < 1024 * j ∨ 1024 * j + 1024 ≤ (y 1).val
    omega

/-- The column accumulator reset to +∞ reads +∞, through whatever view. -/
theorem reset_read {sg : RefSig} {κ : Kind} {sp : Space} (v : View sg κ sp S1x16384 .f32)
    (inb : ∀ a, (![0, 0] : Fin 2 → ℕ) a + (![1, 16384] : Fin 2 → ℕ) a ≤ S1x16384.size a) :
    v.read (Elt Ideal) (v.writes (Elt Ideal) v.junk
      [(⟨Rect.unit (s := S1x16384) ![0, 0] ![1, 16384] inb, k0_pay5 (F := Ideal)⟩ : View.Piece (Elt Ideal) S1x16384 .f32)])
      = k0_pay5 (F := Ideal) := by
  rw [View.read_writes_junk_eq_canon]
  exact View.canon_unit_zero (S := S1x16384) hz2 inb _

/-! ## Case by case -/

/-- Case A: the row accumulator after the body. -/
theorem rowA (c : Dev nD) (i : grid0.Coords) (arg2 : Memref sig .tc .vmem S1024x3 .f32) (harg2 : arg2.IsWhole) (arg3 : Memref sig .tc .vmem S8x1024 .f32) (harg3 : arg3.IsWhole) (arg4 : Memref sig .tc .vmem S1024x1 .f32) (harg4 : arg4.IsWhole) (arg5 : Memref sig .tc .vmem S1x16384 .f32) (harg5 : arg5.IsWhole) (arg6 : Memref sig .tc .vmem S1024x1 .f32) (harg6 : arg6.IsWhole) (arg7 : Memref sig .tc .vmem S1x16384 .f32) (harg7 : arg7.IsWhole) (hc0 : cond0_0 i) (hc1 : cond0_1 i) (hc2 : ¬cond0_2 i) (hc3 : ¬cond0_3 i)
    (x0 : Vec Ideal S1024x3 .f32) (x1 : Vec Ideal S8x1024 .f32) :
    sout0_A_0 (F := Ideal) c i arg2 harg2 arg3 harg3 arg4 harg4 arg5 harg5 arg6 harg6 arg7 harg7 hc0 hc1 hc2 hc3 x0 x1 = rowNew x0 x1 (k0_pay6 (F := Ideal)) := by
  unfold sout0_A_0
  rw [View.read_writes_eq_canon _ _ _ (scover0_A_0 c i arg2 harg2 arg3 harg3 arg4 harg4 arg5 harg5 arg6 harg6 arg7 harg7 hc0 hc1 hc2 hc3 x0 x1)]
  unfold kernelRun0_A
  dsimp only
  sl_unfold_words
  rw [View.canon_cons_unit_zero (S := S1024x1) hz2, View.readCov_unit_zero (S := S1024x1) _ hz2]
  simp only [View.readAt_eq_ld, harg2.read_unread, harg3.read_unread, harg6.read_unread, harg7.read_unread,
    View.ld_unit_zero (S := S1024x3) hz2, View.ld_unit_zero (S := S8x1024) hz2, View.ld_unit_zero (S := S1024x1) hz2]
  exact pay1_eq_rowNew x0 x1 _

/-- Case B: the row accumulator after the body. -/
theorem rowB (c : Dev nD) (i : grid0.Coords) (arg2 : Memref sig .tc .vmem S1024x3 .f32) (harg2 : arg2.IsWhole) (arg3 : Memref sig .tc .vmem S8x1024 .f32) (harg3 : arg3.IsWhole) (arg4 : Memref sig .tc .vmem S1024x1 .f32) (harg4 : arg4.IsWhole) (arg5 : Memref sig .tc .vmem S1x16384 .f32) (harg5 : arg5.IsWhole) (arg6 : Memref sig .tc .vmem S1024x1 .f32) (harg6 : arg6.IsWhole) (arg7 : Memref sig .tc .vmem S1x16384 .f32) (harg7 : arg7.IsWhole) (hc0 : ¬cond0_0 i) (hc1 : ¬cond0_1 i) (hc2 : ¬cond0_2 i) (hc3 : ¬cond0_3 i)
    (x0 : Vec Ideal S1024x3 .f32) (x1 : Vec Ideal S8x1024 .f32) (xs0 : Vec Ideal S1024x1 .f32) (xs1 : Vec Ideal S1x16384 .f32) :
    sout0_B_0 (F := Ideal) c i arg2 harg2 arg3 harg3 arg4 harg4 arg5 harg5 arg6 harg6 arg7 harg7 hc0 hc1 hc2 hc3 x0 x1 xs0 xs1 = rowNew x0 x1 xs0 := by
  unfold sout0_B_0
  rw [View.read_writes_eq_canon _ _ _ (scover0_B_0 c i arg2 harg2 arg3 harg3 arg4 harg4 arg5 harg5 arg6 harg6 arg7 harg7 hc0 hc1 hc2 hc3 x0 x1 xs0 xs1)]
  unfold kernelRun0_B
  dsimp only
  sl_unfold_words
  rw [View.canon_unit_zero hz2]
  simp only [View.readAt_eq_ld, harg2.read_unread, harg3.read_unread, harg6.read_unread, harg7.read_unread,
    View.ld_unit_zero (S := S1024x3) hz2, View.ld_unit_zero (S := S8x1024) hz2, View.ld_unit_zero (S := S1024x1) hz2]
  exact pay1_eq_rowNew x0 x1 _

/-- Case C: the row accumulator after the body. -/
theorem rowC (c : Dev nD) (i : grid0.Coords) (arg2 : Memref sig .tc .vmem S1024x3 .f32) (harg2 : arg2.IsWhole) (arg3 : Memref sig .tc .vmem S8x1024 .f32) (harg3 : arg3.IsWhole) (arg4 : Memref sig .tc .vmem S1024x1 .f32) (harg4 : arg4.IsWhole) (arg5 : Memref sig .tc .vmem S1x16384 .f32) (harg5 : arg5.IsWhole) (arg6 : Memref sig .tc .vmem S1024x1 .f32) (harg6 : arg6.IsWhole) (arg7 : Memref sig .tc .vmem S1x16384 .f32) (harg7 : arg7.IsWhole) (hc0 : ¬cond0_0 i) (hc1 : ¬cond0_1 i) (hc2 : cond0_2 i) (hc3 : ¬cond0_3 i)
    (x0 : Vec Ideal S1024x3 .f32) (x1 : Vec Ideal S8x1024 .f32) (xs0 : Vec Ideal S1024x1 .f32) (xs1 : Vec Ideal S1x16384 .f32) :
    sout0_C_0 (F := Ideal) c i arg2 harg2 arg3 harg3 arg4 harg4 arg5 harg5 arg6 harg6 arg7 harg7 hc0 hc1 hc2 hc3 x0 x1 xs0 xs1 = rowNew x0 x1 xs0 := by
  unfold sout0_C_0
  rw [View.read_writes_eq_canon _ _ _ (scover0_C_0 c i arg2 harg2 arg3 harg3 arg4 harg4 arg5 harg5 arg6 harg6 arg7 harg7 hc0 hc1 hc2 hc3 x0 x1 xs0 xs1)]
  unfold kernelRun0_C
  dsimp only
  sl_unfold_words
  rw [View.canon_unit_zero hz2]
  simp only [View.readAt_eq_ld, harg2.read_unread, harg3.read_unread, harg6.read_unread, harg7.read_unread,
    View.ld_unit_zero (S := S1024x3) hz2, View.ld_unit_zero (S := S8x1024) hz2, View.ld_unit_zero (S := S1024x1) hz2]
  exact pay1_eq_rowNew x0 x1 _

/-- Case D: the row accumulator after the body. -/
theorem rowD (c : Dev nD) (i : grid0.Coords) (arg2 : Memref sig .tc .vmem S1024x3 .f32) (harg2 : arg2.IsWhole) (arg3 : Memref sig .tc .vmem S8x1024 .f32) (harg3 : arg3.IsWhole) (arg4 : Memref sig .tc .vmem S1024x1 .f32) (harg4 : arg4.IsWhole) (arg5 : Memref sig .tc .vmem S1x16384 .f32) (harg5 : arg5.IsWhole) (arg6 : Memref sig .tc .vmem S1024x1 .f32) (harg6 : arg6.IsWhole) (arg7 : Memref sig .tc .vmem S1x16384 .f32) (harg7 : arg7.IsWhole) (hc0 : ¬cond0_0 i) (hc1 : cond0_1 i) (hc2 : ¬cond0_2 i) (hc3 : ¬cond0_3 i)
    (x0 : Vec Ideal S1024x3 .f32) (x1 : Vec Ideal S8x1024 .f32) (xs1 : Vec Ideal S1x16384 .f32) :
    sout0_D_0 (F := Ideal) c i arg2 harg2 arg3 harg3 arg4 harg4 arg5 harg5 arg6 harg6 arg7 harg7 hc0 hc1 hc2 hc3 x0 x1 xs1 = rowNew x0 x1 (k0_pay6 (F := Ideal)) := by
  unfold sout0_D_0
  rw [View.read_writes_eq_canon _ _ _ (scover0_D_0 c i arg2 harg2 arg3 harg3 arg4 harg4 arg5 harg5 arg6 harg6 arg7 harg7 hc0 hc1 hc2 hc3 x0 x1 xs1)]
  unfold kernelRun0_D
  dsimp only
  sl_unfold_words
  rw [View.canon_cons_unit_zero (S := S1024x1) hz2, View.readCov_unit_zero (S := S1024x1) _ hz2]
  simp only [View.readAt_eq_ld, harg2.read_unread, harg3.read_unread, harg6.read_unread, harg7.read_unread,
    View.ld_unit_zero (S := S1024x3) hz2, View.ld_unit_zero (S := S8x1024) hz2, View.ld_unit_zero (S := S1024x1) hz2]
  exact pay1_eq_rowNew x0 x1 _

/-- Case E: the row accumulator after the body. -/
theorem rowE (c : Dev nD) (i : grid0.Coords) (arg2 : Memref sig .tc .vmem S1024x3 .f32) (harg2 : arg2.IsWhole) (arg3 : Memref sig .tc .vmem S8x1024 .f32) (harg3 : arg3.IsWhole) (arg4 : Memref sig .tc .vmem S1024x1 .f32) (harg4 : arg4.IsWhole) (arg5 : Memref sig .tc .vmem S1x16384 .f32) (harg5 : arg5.IsWhole) (arg6 : Memref sig .tc .vmem S1024x1 .f32) (harg6 : arg6.IsWhole) (arg7 : Memref sig .tc .vmem S1x16384 .f32) (harg7 : arg7.IsWhole) (hc0 : ¬cond0_0 i) (hc1 : ¬cond0_1 i) (hc2 : cond0_2 i) (hc3 : cond0_3 i)
    (x0 : Vec Ideal S1024x3 .f32) (x1 : Vec Ideal S8x1024 .f32) (xs0 : Vec Ideal S1024x1 .f32) (xs1 : Vec Ideal S1x16384 .f32) :
    sout0_E_0 (F := Ideal) c i arg2 harg2 arg3 harg3 arg4 harg4 arg5 harg5 arg6 harg6 arg7 harg7 hc0 hc1 hc2 hc3 x0 x1 xs0 xs1 = rowNew x0 x1 xs0 := by
  unfold sout0_E_0
  rw [View.read_writes_eq_canon _ _ _ (scover0_E_0 c i arg2 harg2 arg3 harg3 arg4 harg4 arg5 harg5 arg6 harg6 arg7 harg7 hc0 hc1 hc2 hc3 x0 x1 xs0 xs1)]
  unfold kernelRun0_E
  dsimp only
  sl_unfold_words
  rw [View.canon_unit_zero hz2]
  simp only [View.readAt_eq_ld, harg2.read_unread, harg3.read_unread, harg6.read_unread, harg7.read_unread,
    View.ld_unit_zero (S := S1024x3) hz2, View.ld_unit_zero (S := S8x1024) hz2, View.ld_unit_zero (S := S1024x1) hz2]
  exact pay1_eq_rowNew x0 x1 _

/-- Case C: the row output receives the clamped roots of the updated row accumulator. -/
theorem outRowC (c : Dev nD) (i : grid0.Coords) (arg2 : Memref sig .tc .vmem S1024x3 .f32) (harg2 : arg2.IsWhole) (arg3 : Memref sig .tc .vmem S8x1024 .f32) (harg3 : arg3.IsWhole) (arg4 : Memref sig .tc .vmem S1024x1 .f32) (harg4 : arg4.IsWhole) (arg5 : Memref sig .tc .vmem S1x16384 .f32) (harg5 : arg5.IsWhole) (arg6 : Memref sig .tc .vmem S1024x1 .f32) (harg6 : arg6.IsWhole) (arg7 : Memref sig .tc .vmem S1x16384 .f32) (harg7 : arg7.IsWhole) (hc0 : ¬cond0_0 i) (hc1 : ¬cond0_1 i) (hc2 : cond0_2 i) (hc3 : ¬cond0_3 i)
    (x0 : Vec Ideal S1024x3 .f32) (x1 : Vec Ideal S8x1024 .f32) (xs0 : Vec Ideal S1024x1 .f32) (xs1 : Vec Ideal S1x16384 .f32) (y : S1024x1.Idx) :
    out0_C_2 (F := Ideal) c i arg2 harg2 arg3 harg3 arg4 harg4 arg5 harg5 arg6 harg6 arg7 harg7 hc0 hc1 hc2 hc3 x0 x1 xs0 xs1 y = clampSqrt (Ideal.ofBits .f32 0x00000000#32) (rowNew x0 x1 xs0 y) := by
  unfold out0_C_2
  rw [View.read_writes_eq_canon _ _ _ (cover0_C_2 c i arg2 harg2 arg3 harg3 arg4 harg4 arg5 harg5 arg6 harg6 arg7 harg7 hc0 hc1 hc2 hc3 x0 x1 xs0 xs1)]
  unfold kernelRun0_C
  dsimp only
  sl_unfold_words
  rw [View.canon_unit_zero hz2, View.readCov_unit_zero (S := S1024x1) _ hz2]
  simp only [View.readAt_eq_ld, harg2.read_unread, harg3.read_unread, harg6.read_unread, harg7.read_unread,
    View.ld_unit_zero (S := S1024x3) hz2, View.ld_unit_zero (S := S8x1024) hz2, View.ld_unit_zero (S := S1024x1) hz2]
  rw [pay1_eq_rowNew]
  exact pay3_apply _ y

/-- Case E: the row output receives the clamped roots of the updated row accumulator. -/
theorem outRowE (c : Dev nD) (i : grid0.Coords) (arg2 : Memref sig .tc .vmem S1024x3 .f32) (harg2 : arg2.IsWhole) (arg3 : Memref sig .tc .vmem S8x1024 .f32) (harg3 : arg3.IsWhole) (arg4 : Memref sig .tc .vmem S1024x1 .f32) (harg4 : arg4.IsWhole) (arg5 : Memref sig .tc .vmem S1x16384 .f32) (harg5 : arg5.IsWhole) (arg6 : Memref sig .tc .vmem S1024x1 .f32) (harg6 : arg6.IsWhole) (arg7 : Memref sig .tc .vmem S1x16384 .f32) (harg7 : arg7.IsWhole) (hc0 : ¬cond0_0 i) (hc1 : ¬cond0_1 i) (hc2 : cond0_2 i) (hc3 : cond0_3 i)
    (x0 : Vec Ideal S1024x3 .f32) (x1 : Vec Ideal S8x1024 .f32) (xs0 : Vec Ideal S1024x1 .f32) (xs1 : Vec Ideal S1x16384 .f32) (y : S1024x1.Idx) :
    out0_E_2 (F := Ideal) c i arg2 harg2 arg3 harg3 arg4 harg4 arg5 harg5 arg6 harg6 arg7 harg7 hc0 hc1 hc2 hc3 x0 x1 xs0 xs1 y = clampSqrt (Ideal.ofBits .f32 0x00000000#32) (rowNew x0 x1 xs0 y) := by
  unfold out0_E_2
  rw [View.read_writes_eq_canon _ _ _ (cover0_E_2 c i arg2 harg2 arg3 harg3 arg4 harg4 arg5 harg5 arg6 harg6 arg7 harg7 hc0 hc1 hc2 hc3 x0 x1 xs0 xs1)]
  unfold kernelRun0_E
  dsimp only
  sl_unfold_words
  rw [View.canon_unit_zero hz2, View.readCov_unit_zero (S := S1024x1) _ hz2]
  simp only [View.readAt_eq_ld, harg2.read_unread, harg3.read_unread, harg6.read_unread, harg7.read_unread,
    View.ld_unit_zero (S := S1024x3) hz2, View.ld_unit_zero (S := S8x1024) hz2, View.ld_unit_zero (S := S1024x1) hz2]
  rw [pay1_eq_rowNew]
  exact pay3_apply _ y

/-- Case B: the column accumulator after the body. -/
theorem colB (c : Dev nD) (i : grid0.Coords) (arg2 : Memref sig .tc .vmem S1024x3 .f32) (harg2 : arg2.IsWhole) (arg3 : Memref sig .tc .vmem S8x1024 .f32) (harg3 : arg3.IsWhole) (arg4 : Memref sig .tc .vmem S1024x1 .f32) (harg4 : arg4.IsWhole) (arg5 : Memref sig .tc .vmem S1x16384 .f32) (harg5 : arg5.IsWhole) (arg6 : Memref sig .tc .vmem S1024x1 .f32) (harg6 : arg6.IsWhole) (arg7 : Memref sig .tc .vmem S1x16384 .f32) (harg7 : arg7.IsWhole) (hc0 : ¬cond0_0 i) (hc1 : ¬cond0_1 i) (hc2 : ¬cond0_2 i) (hc3 : ¬cond0_3 i)
    (x0 : Vec Ideal S1024x3 .f32) (x1 : Vec Ideal S8x1024 .f32) (xs0 : Vec Ideal S1024x1 .f32) (xs1 : Vec Ideal S1x16384 .f32) (j : ℕ) (hoff : k0_off1 i = ![0, 1024 * j]) (y : S1x16384.Idx) :
    sout0_B_1 (F := Ideal) c i arg2 harg2 arg3 harg3 arg4 harg4 arg5 harg5 arg6 harg6 arg7 harg7 hc0 hc1 hc2 hc3 x0 x1 xs0 xs1 y = colNew j x0 x1 xs1 y := by
  unfold sout0_B_1 kernelRun0_B
  dsimp only
  sl_unfold_words
  simp only [View.readAt_eq_ld, harg2.read_unread, harg3.read_unread, harg6.read_unread, harg7.read_unread,
    View.ld_unit_zero (S := S1024x3) hz2, View.ld_unit_zero (S := S8x1024) hz2, View.ld_unit_zero (S := S1024x1) hz2]
  exact colWrite_apply arg7.view (harg7.unread xs1) _ _ [] x0 x1 xs1 (harg7.read_unread xs1) j hoff y

/-- Case C: the column accumulator after the body. -/
theorem colC (c : Dev nD) (i : grid0.Coords) (arg2 : Memref sig .tc .vmem S1024x3 .f32) (harg2 : arg2.IsWhole) (arg3 : Memref sig .tc .vmem S8x1024 .f32) (harg3 : arg3.IsWhole) (arg4 : Memref sig .tc .vmem S1024x1 .f32) (harg4 : arg4.IsWhole) (arg5 : Memref sig .tc .vmem S1x16384 .f32) (harg5 : arg5.IsWhole) (arg6 : Memref sig .tc .vmem S1024x1 .f32) (harg6 : arg6.IsWhole) (arg7 : Memref sig .tc .vmem S1x16384 .f32) (harg7 : arg7.IsWhole) (hc0 : ¬cond0_0 i) (hc1 : ¬cond0_1 i) (hc2 : cond0_2 i) (hc3 : ¬cond0_3 i)
    (x0 : Vec Ideal S1024x3 .f32) (x1 : Vec Ideal S8x1024 .f32) (xs0 : Vec Ideal S1024x1 .f32) (xs1 : Vec Ideal S1x16384 .f32) (j : ℕ) (hoff : k0_off1 i = ![0, 1024 * j]) (y : S1x16384.Idx) :
    sout0_C_1 (F := Ideal) c i arg2 harg2 arg3 harg3 arg4 harg4 arg5 harg5 arg6 harg6 arg7 harg7 hc0 hc1 hc2 hc3 x0 x1 xs0 xs1 y = colNew j x0 x1 xs1 y := by
  unfold sout0_C_1 kernelRun0_C
  dsimp only
  sl_unfold_words
  simp only [View.readAt_eq_ld, harg2.read_unread, harg3.read_unread, harg6.read_unread, harg7.read_unread,
    View.ld_unit_zero (S := S1024x3) hz2, View.ld_unit_zero (S := S8x1024) hz2, View.ld_unit_zero (S := S1024x1) hz2]
  exact colWrite_apply arg7.view (harg7.unread xs1) _ _ [] x0 x1 xs1 (harg7.read_unread xs1) j hoff y

/-- Case D: the column accumulator after the body. -/
theorem colD (c : Dev nD) (i : grid0.Coords) (arg2 : Memref sig .tc .vmem S1024x3 .f32) (harg2 : arg2.IsWhole) (arg3 : Memref sig .tc .vmem S8x1024 .f32) (harg3 : arg3.IsWhole) (arg4 : Memref sig .tc .vmem S1024x1 .f32) (harg4 : arg4.IsWhole) (arg5 : Memref sig .tc .vmem S1x16384 .f32) (harg5 : arg5.IsWhole) (arg6 : Memref sig .tc .vmem S1024x1 .f32) (harg6 : arg6.IsWhole) (arg7 : Memref sig .tc .vmem S1x16384 .f32) (harg7 : arg7.IsWhole) (hc0 : ¬cond0_0 i) (hc1 : cond0_1 i) (hc2 : ¬cond0_2 i) (hc3 : ¬cond0_3 i)
    (x0 : Vec Ideal S1024x3 .f32) (x1 : Vec Ideal S8x1024 .f32) (xs1 : Vec Ideal S1x16384 .f32) (j : ℕ) (hoff : k0_off1 i = ![0, 1024 * j]) (y : S1x16384.Idx) :
    sout0_D_1 (F := Ideal) c i arg2 harg2 arg3 harg3 arg4 harg4 arg5 harg5 arg6 harg6 arg7 harg7 hc0 hc1 hc2 hc3 x0 x1 xs1 y = colNew j x0 x1 xs1 y := by
  unfold sout0_D_1 kernelRun0_D
  dsimp only
  sl_unfold_words
  simp only [View.readAt_eq_ld, harg2.read_unread, harg3.read_unread, harg6.read_unread, harg7.read_unread,
    View.ld_unit_zero (S := S1024x3) hz2, View.ld_unit_zero (S := S8x1024) hz2, View.ld_unit_zero (S := S1024x1) hz2]
  exact colWrite_apply arg7.view (harg7.unread xs1) _ _ [] x0 x1 xs1 (harg7.read_unread xs1) j hoff y

/-- Case E: the column accumulator after the body. -/
theorem colE (c : Dev nD) (i : grid0.Coords) (arg2 : Memref sig .tc .vmem S1024x3 .f32) (harg2 : arg2.IsWhole) (arg3 : Memref sig .tc .vmem S8x1024 .f32) (harg3 : arg3.IsWhole) (arg4 : Memref sig .tc .vmem S1024x1 .f32) (harg4 : arg4.IsWhole) (arg5 : Memref sig .tc .vmem S1x16384 .f32) (harg5 : arg5.IsWhole) (arg6 : Memref sig .tc .vmem S1024x1 .f32) (harg6 : arg6.IsWhole) (arg7 : Memref sig .tc .vmem S1x16384 .f32) (harg7 : arg7.IsWhole) (hc0 : ¬cond0_0 i) (hc1 : ¬cond0_1 i) (hc2 : cond0_2 i) (hc3 : cond0_3 i)
    (x0 : Vec Ideal S1024x3 .f32) (x1 : Vec Ideal S8x1024 .f32) (xs0 : Vec Ideal S1024x1 .f32) (xs1 : Vec Ideal S1x16384 .f32) (j : ℕ) (hoff : k0_off1 i = ![0, 1024 * j]) (y : S1x16384.Idx) :
    sout0_E_1 (F := Ideal) c i arg2 harg2 arg3 harg3 arg4 harg4 arg5 harg5 arg6 harg6 arg7 harg7 hc0 hc1 hc2 hc3 x0 x1 xs0 xs1 y = colNew j x0 x1 xs1 y := by
  unfold sout0_E_1 kernelRun0_E
  dsimp only
  sl_unfold_words
  simp only [View.readAt_eq_ld, harg2.read_unread, harg3.read_unread, harg6.read_unread, harg7.read_unread,
    View.ld_unit_zero (S := S1024x3) hz2, View.ld_unit_zero (S := S8x1024) hz2, View.ld_unit_zero (S := S1024x1) hz2]
  exact colWrite_apply arg7.view (harg7.unread xs1) _ _ [] x0 x1 xs1 (harg7.read_unread xs1) j hoff y

/-- Case A: the column accumulator after the body, reset to +∞ first. -/
theorem colA (c : Dev nD) (i : grid0.Coords) (arg2 : Memref sig .tc .vmem S1024x3 .f32) (harg2 : arg2.IsWhole) (arg3 : Memref sig .tc .vmem S8x1024 .f32) (harg3 : arg3.IsWhole) (arg4 : Memref sig .tc .vmem S1024x1 .f32) (harg4 : arg4.IsWhole) (arg5 : Memref sig .tc .vmem S1x16384 .f32) (harg5 : arg5.IsWhole) (arg6 : Memref sig .tc .vmem S1024x1 .f32) (harg6 : arg6.IsWhole) (arg7 : Memref sig .tc .vmem S1x16384 .f32) (harg7 : arg7.IsWhole) (hc0 : cond0_0 i) (hc1 : cond0_1 i) (hc2 : ¬cond0_2 i) (hc3 : ¬cond0_3 i)
    (x0 : Vec Ideal S1024x3 .f32) (x1 : Vec Ideal S8x1024 .f32) (j : ℕ) (hoff : k0_off1 i = ![0, 1024 * j]) (y : S1x16384.Idx) :
    sout0_A_1 (F := Ideal) c i arg2 harg2 arg3 harg3 arg4 harg4 arg5 harg5 arg6 harg6 arg7 harg7 hc0 hc1 hc2 hc3 x0 x1 y = colNew j x0 x1 (k0_pay5 (F := Ideal)) y := by
  unfold sout0_A_1 kernelRun0_A
  dsimp only
  sl_unfold_words
  simp only [View.readAt_eq_ld, harg2.read_unread, harg3.read_unread, harg6.read_unread, harg7.read_unread,
    View.ld_unit_zero (S := S1024x3) hz2, View.ld_unit_zero (S := S8x1024) hz2, View.ld_unit_zero (S := S1024x1) hz2, reset_read]
  exact colWrite_apply VS0_1 VS0_1.junk _ _ _ x0 x1 (k0_pay5 (F := Ideal)) (reset_read VS0_1 _) j hoff y

/-- Case E: the column output receives the clamped roots of the updated column accumulator. -/
theorem outColE (c : Dev nD) (i : grid0.Coords) (arg2 : Memref sig .tc .vmem S1024x3 .f32) (harg2 : arg2.IsWhole) (arg3 : Memref sig .tc .vmem S8x1024 .f32) (harg3 : arg3.IsWhole) (arg4 : Memref sig .tc .vmem S1024x1 .f32) (harg4 : arg4.IsWhole) (arg5 : Memref sig .tc .vmem S1x16384 .f32) (harg5 : arg5.IsWhole) (arg6 : Memref sig .tc .vmem S1024x1 .f32) (harg6 : arg6.IsWhole) (arg7 : Memref sig .tc .vmem S1x16384 .f32) (harg7 : arg7.IsWhole) (hc0 : ¬cond0_0 i) (hc1 : ¬cond0_1 i) (hc2 : cond0_2 i) (hc3 : cond0_3 i)
    (x0 : Vec Ideal S1024x3 .f32) (x1 : Vec Ideal S8x1024 .f32) (xs0 : Vec Ideal S1024x1 .f32) (xs1 : Vec Ideal S1x16384 .f32) (j : ℕ) (hoff : k0_off1 i = ![0, 1024 * j]) (y : S1x16384.Idx) :
    out0_E_3 (F := Ideal) c i arg2 harg2 arg3 harg3 arg4 harg4 arg5 harg5 arg6 harg6 arg7 harg7 hc0 hc1 hc2 hc3 x0 x1 xs0 xs1 y
      = clampSqrt (Ideal.ofBits .f32 0x00000000#32) (colNew j x0 x1 xs1 y) := by
  unfold out0_E_3
  rw [View.read_writes_eq_canon _ _ _ (cover0_E_3 c i arg2 harg2 arg3 harg3 arg4 harg4 arg5 harg5 arg6 harg6 arg7 harg7 hc0 hc1 hc2 hc3 x0 x1 xs0 xs1)]
  unfold kernelRun0_E
  dsimp only
  sl_unfold_words
  rw [View.canon_unit_zero hz2]
  simp only [View.readAt_eq_ld, harg2.read_unread, harg3.read_unread, harg6.read_unread, harg7.read_unread,
    View.ld_unit_zero (S := S1024x3) hz2, View.ld_unit_zero (S := S8x1024) hz2, View.ld_unit_zero (S := S1024x1) hz2, View.ld_unit_zero (S := S1x16384) hz2]
  refine (pay4_apply _ y).trans (congrArg (clampSqrt _) ?_)
  exact colWrite_apply arg7.view (harg7.unread xs1) _ _ [] x0 x1 xs1 (harg7.read_unread xs1) j hoff y

end Cert.Chamfer

end
-- ==== Proof.LibPad.lean ====
/-
  `stablehlo.pad` read at an index: a result index that lands on operand entry `k` (on every axis its coordinate is
  `lo + k · (interior + 1)`) reads the operand there; an index that misses the operand on some axis reads the padding value.
-/
import Idealize.ShloMosaic.PureOps.ShapeOps

namespace Idealize.ShloMosaic.LibPad

open Idealize.ShloMosaic

variable {s t u : Shape} {α : Type}

/-- The padded array at an index that lands on the operand's entry `k` is the operand at `k`. -/
theorem pad_apply_of_mem (lo hi interior : Fin s.rank → Nat) (x : s.Idx → α) (v : u.Idx → α)
    (h : s.Pads lo hi interior t) (hu : 0 < u.numel) (j : t.Idx) (k : s.Idx)
    (hk : ∀ a : Fin s.rank, (j (a.cast h.1)).val = lo a + (k a).val * (interior a + 1)) :
    pad t lo hi interior x v h hu j = x k := by
  have hin : ∀ a : Fin s.rank, lo a ≤ (j (a.cast h.1)).val ∧ ((j (a.cast h.1)).val - lo a) % (interior a + 1) = 0
      ∧ ((j (a.cast h.1)).val - lo a) / (interior a + 1) < s.size a := fun a => by
    rw [hk a]
    refine ⟨Nat.le_add_right _ _, ?_, ?_⟩
    · rw [Nat.add_sub_cancel_left]; exact Nat.mul_mod_left _ _
    · rw [Nat.add_sub_cancel_left, Nat.mul_div_cancel _ (Nat.succ_pos _)]; exact (k a).isLt
  unfold pad
  rw [dif_pos hin]
  exact congrArg x (funext fun a => Fin.ext (by
    show ((j (a.cast h.1)).val - lo a) / (interior a + 1) = (k a).val
    rw [hk a, Nat.add_sub_cancel_left, Nat.mul_div_cancel _ (Nat.succ_pos _)]))

/-- The padded array at an index beyond the operand on some axis (no interior padding there is needed: it is enough that the
    coordinate, less the low padding, divided by the stride, is not below the operand's extent) is the padding value. -/
theorem pad_apply_of_not_mem (lo hi interior : Fin s.rank → Nat) (x : s.Idx → α) (v : u.Idx → α)
    (h : s.Pads lo hi interior t) (hu : 0 < u.numel) (j : t.Idx) (a : Fin s.rank)
    (ha : s.size a ≤ ((j (a.cast h.1)).val - lo a) / (interior a + 1)) :
    pad t lo hi interior x v h hu j = v (Shape.Idx.first hu) := by
  unfold pad
  rw [dif_neg]
  intro hin
  exact absurd (hin a).2.2 (Nat.not_lt.mpr ha)

end Idealize.ShloMosaic.LibPad
-- ==== Proof.Blocks.lean ====
/-
  The two input blocks a grid point sees, read at coordinates.

  Point `t` (tile row `t / 16`, tile column `t % 16`) is handed rows `1024 (t / 16) …` of `a` and columns `1024 (t % 16) …`
  of the 8 × 16384 array the host prepared from `b`: its transpose (coordinate-major) padded below with five zero rows.
  So entry `(r, k)` of the first block is coordinate `k` of a-point `1024 (t / 16) + r`, and entry `(k, c)` of the second,
  for `k < 3`, is coordinate `k` of b-point `1024 (t % 16) + c`.
-/
import proofs.«126038_j36369783063040_2_alg».proof.Proof.Gen.KernelIdeal.Frame
import proofs.«126038_j36369783063040_2_alg».proof.Proof.LibPad
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.Chamfer

open Idealize.ShloMosaic Idealize.ShloMosaic.Tactic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The a-point in row `r` of the tile at point `t`. -/
def rowIdx (t : Fin cfg0.N) (r : Fin 1024) : Fin 16384 :=
  ⟨1024 * (t.val / 16) + r.val, by have := t.isLt; have hN : cfg0.N = 256 := N_0; omega⟩

/-- The b-point in column `c` of the tile at point `t`. -/
def colIdx (t : Fin cfg0.N) (c : Fin 1024) : Fin 16384 :=
  ⟨1024 * (t.val % 16) + c.val, by omega⟩

/-- The index maps over the grid: the first window moves with the tile row, the second with the tile column. -/
theorem idx_facts : ∀ t : Fin cfg0.N, win0_0.index t (0 : Fin 2) = t.val / 16 ∧ win0_0.index t (1 : Fin 2) = 0
    ∧ win0_1.index t (0 : Fin 2) = 0 ∧ win0_1.index t (1 : Fin 2) = t.val % 16 :=
  (by decide +kernel : ∀ t : Fin grid0.N, _)

/-- The first block's entry `(r, k)` is coordinate `k` of a-point `rowIdx t r`. -/
theorem iblk0_apply (c : Dev nD) (t : Fin cfg0.N) (r : Fin 1024) (k : Fin 3) :
    (iblk m c 0 t : Vec F S1024x3 .f32) (ix2 r k) = m ((c : Thread nD τ).loc main_arg0) (ix2 (rowIdx t r) k) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = 1024 * (t.val / 16) + r.val; rw [(idx_facts t).1]; omega
  | ⟨1, _⟩ => show win0_0.index t 1 * 3 + 1 * k.val = k.val; rw [(idx_facts t).2.1]; omega

/-- What the host prepared for the second window: `b` transposed, then padded below with five rows of the converted zero. -/
theorem V_main_v1 (c : Dev nD) : (V m c main_v1 : S8x16384.Idx → Elt F .f32)
    = pad S8x16384 ![0, 0] ![5, 0] ![0, 0]
        (transpose S3x16384 [1, 0] (m ((c : Thread nD τ).loc main_arg1)) transposes_S16384x3_S3x16384_1_0)
        (sitofp (F := F) .f32 (constantI S_ 32 0#32)) pads_S3x16384_S8x16384_050_000 h_S_ := by
  dsimp only [V, V0]
  simp only [hostOps0, hostOps0_1, List.flatten_cons, List.flatten_nil, List.append_nil, List.cons_append, List.nil_append]
  after_results
  rfl

/-- The second block's entry `(k, c)`, `k < 3`, is coordinate `k` of b-point `colIdx t c`. -/
theorem iblk1_apply (c : Dev nD) (t : Fin cfg0.N) (k : Fin 3) (cc : Fin 1024) :
    (iblk m c 1 t : Vec F S8x1024 .f32) (ix2 (⟨k.val, by omega⟩ : Fin 8) cc)
      = m ((c : Thread nD τ).loc main_arg1) (ix2 (colIdx t cc) k) := by
  unfold iblk
  rw [View.read_apply]
  show V m c main_v1 _ = _
  rw [V_main_v1]
  refine (LibPad.pad_apply_of_mem _ _ _ _ _ _ _ _ (ix2 k (colIdx t cc)) (fun a => ?_)).trans ?_
  · match a with
    | ⟨0, _⟩ => show win0_1.index t 0 * 8 + 1 * k.val = 0 + k.val * (0 + 1); rw [(idx_facts t).2.2.1]; omega
    | ⟨1, _⟩ => show win0_1.index t 1 * 1024 + 1 * cc.val = 0 + (1024 * (t.val % 16) + cc.val) * (0 + 1); rw [(idx_facts t).2.2.2]; omega
  · exact transpose_ix2_apply (a := 16384) (b := 3) _ _ k (colIdx t cc)

end Cert.Chamfer

end
-- ==== Proof.Accum.lean ====
/-
  The two accumulators, as functions of the grid point.

  The grid is swept row-major: point `n` is tile row `n / 16`, tile column `n % 16`; a tile is 1024 × 1024 entries of a
  matrix `D p q` (here over natural-number coordinates). After point `n`
    * the row accumulator holds, for row `r` of the current tile row, the minimum of `D (1024 (n/16) + r) q` over the columns
      `q` of the tiles swept so far in this tile row: `q < 1024 (n % 16 + 1)`;
    * the column accumulator holds, for column `q`, the minimum of `D p q` over the rows of the tile rows that have already
      passed column `q`'s tile: all of the current tile row if `q < 1024 (n % 16 + 1)`, else only the earlier tile rows.
  Each point takes the tile's row minima into the first and the tile's column minima into the slice of the second under
  the tile; the laws below are those steps, and what the accumulators hold when a tile row, or the grid, is finished.
-/
import proofs.«126038_j36369783063040_2_alg».proof.Proof.Spec

noncomputable section

namespace Cert.Chamfer

variable (D : ℕ → ℕ → EReal)

/-- Row accumulator after point `n`, at row `r` of the tile row. -/
def rowState (n r : ℕ) : EReal := partInf (D (1024 * (n / 16) + r)) (1024 * (n % 16 + 1))

/-- How many rows of column `q` the column accumulator has seen after point `n`. -/
def colBound (n q : ℕ) : ℕ := if q < 1024 * (n % 16 + 1) then 1024 * (n / 16 + 1) else 1024 * (n / 16)

/-- Column accumulator after point `n`, at column `q`. -/
def colState (n q : ℕ) : EReal := partInf (fun p => D p q) (colBound n q)

/-- What the row accumulator holds when the body at point `n` reads it: +∞ at the start of a tile row (it has just been
    reset), else what point `n - 1` left. -/
def rowBefore (n r : ℕ) : EReal := partInf (D (1024 * (n / 16) + r)) (1024 * (n % 16))

/-- The tile's minimum along row `r` at point `n`. -/
def tileRowMin (n r : ℕ) : EReal := (Finset.range 1024).inf fun c => D (1024 * (n / 16) + r) (1024 * (n % 16) + c)

/-- The tile's minimum along column `c` at point `n`. -/
def tileColMin (n c : ℕ) : EReal := (Finset.range 1024).inf fun r => D (1024 * (n / 16) + r) (1024 * (n % 16) + c)

theorem rowState_step (n r : ℕ) : rowState D n r = min (rowBefore D n r) (tileRowMin D n r) := by
  unfold rowState rowBefore tileRowMin
  rw [show 1024 * (n % 16 + 1) = 1024 * (n % 16) + 1024 from by omega]
  exact partInf_add _ _ _

theorem rowBefore_start (n r : ℕ) (h : n % 16 = 0) : rowBefore D n r = ⊤ := by
  unfold rowBefore; rw [h]; exact partInf_zero _

theorem rowBefore_prev (n r : ℕ) (h : ¬ n % 16 = 0) : rowState D (n - 1) r = rowBefore D n r := by
  unfold rowState rowBefore
  rw [show (n - 1) / 16 = n / 16 from by omega, show (n - 1) % 16 + 1 = n % 16 from by omega]

/-- Under the tile the column accumulator takes the tile's column minimum in. -/
theorem colState_step_in (n q : ℕ) (h1 : 1024 * (n % 16) ≤ q) (h2 : q < 1024 * (n % 16 + 1)) :
    colState D n q = min (partInf (fun p => D p q) (1024 * (n / 16))) (tileColMin D n (q - 1024 * (n % 16))) := by
  unfold colState colBound tileColMin
  rw [if_pos h2, show 1024 * (n / 16 + 1) = 1024 * (n / 16) + 1024 from by omega,
    show 1024 * (n % 16) + (q - 1024 * (n % 16)) = q from by omega]
  exact partInf_add _ _ _

/-- Under the tile, what the point before left is the minimum over the earlier tile rows. -/
theorem colState_prev_in (n q : ℕ) (hn : 0 < n) (h1 : 1024 * (n % 16) ≤ q) (h2 : q < 1024 * (n % 16 + 1)) :
    colState D (n - 1) q = partInf (fun p => D p q) (1024 * (n / 16)) := by
  unfold colState colBound
  by_cases h : n % 16 = 0
  · rw [if_pos (by omega), show 1024 * ((n - 1) / 16 + 1) = 1024 * (n / 16) from by omega]
  · rw [if_neg (by omega), show (n - 1) / 16 = n / 16 from by omega]

/-- Away from the tile the column accumulator is what the point before left. -/
theorem colState_prev_out (n q : ℕ) (hn : 0 < n) (hq : q < 16384) (h : q < 1024 * (n % 16) ∨ 1024 * (n % 16 + 1) ≤ q) :
    colState D (n - 1) q = colState D n q := by
  unfold colState colBound
  by_cases h0 : n % 16 = 0
  · rw [if_pos (by omega), if_neg (by omega), show 1024 * ((n - 1) / 16 + 1) = 1024 * (n / 16) from by omega]
  · by_cases hlt : q < 1024 * (n % 16)
    · rw [if_pos (by omega), if_pos (by omega), show (n - 1) / 16 = n / 16 from by omega]
    · rw [if_neg (by omega), if_neg (by omega), show (n - 1) / 16 = n / 16 from by omega]

/-- At the first point, away from the first tile, the column accumulator still holds the +∞ it was reset to. -/
theorem colState_zero_out (q : ℕ) (h : 1024 ≤ q) : colState D 0 q = ⊤ := by
  unfold colState colBound
  rw [if_neg (by omega)]
  exact partInf_zero _

/-- At the first point the minimum over the earlier tile rows is over nothing. -/
theorem colBefore_zero (q : ℕ) : partInf (fun p => D p q) (1024 * (0 / 16)) = ⊤ := partInf_zero _

/-- When a tile row is finished its rows' minima are over every column. -/
theorem rowState_last (n r : ℕ) (h : n % 16 = 15) : rowState D n r = partInf (D (1024 * (n / 16) + r)) 16384 := by
  unfold rowState; rw [h]

/-- When the grid is finished every column's minimum is over every row. -/
theorem colState_last (q : ℕ) (hq : q < 16384) : colState D 255 q = partInf (fun p => D p q) 16384 := by
  unfold colState colBound
  rw [if_pos (by omega)]

end Cert.Chamfer

end
-- ==== Proof.Dist.lean ====
/-
  The squared distance of a-point `p` and b-point `q`, from the two coordinate arrays, in the form the kernel's tile
  takes: `|a_p|² + |b_q|² − 2 (a_p · b_q)`, each a three-term sum; and the same as a function of natural numbers (`⊤`
  beyond the 16384 points, where nothing ever looks).
-/
import proofs.«126038_j36369783063040_2_alg».proof.Proof.Spec
import Idealize.ShloMosaic.Lib.ValueIdx

noncomputable section

namespace Cert.Chamfer

open Idealize.ShloMosaic Idealize.ShloMosaic.ValueIdx

/-- `|a_p|² + |b_q|² − 2 (a_p · b_q)` on the extended reals. -/
def sqdF (A B : (⟨2, ![16384, 3]⟩ : Shape).Idx → EReal) (p q : Fin 16384) : EReal :=
  (A (ix2 p 0) * A (ix2 p 0) + A (ix2 p 1) * A (ix2 p 1) + A (ix2 p 2) * A (ix2 p 2))
    + (B (ix2 q 0) * B (ix2 q 0) + B (ix2 q 1) * B (ix2 q 1) + B (ix2 q 2) * B (ix2 q 2))
    - Ideal.ofBits .f32 0x40000000#32
      * (A (ix2 p 0) * B (ix2 q 0) + A (ix2 p 1) * B (ix2 q 1) + A (ix2 p 2) * B (ix2 q 2))

/-- The same over natural-number coordinates. -/
def distN (A B : (⟨2, ![16384, 3]⟩ : Shape).Idx → EReal) (p q : ℕ) : EReal :=
  if h : p < 16384 ∧ q < 16384 then sqdF A B ⟨p, h.1⟩ ⟨q, h.2⟩ else ⊤

/-- The word `0x7F800000` is +∞. -/
theorem ofBits_top : (Ideal.ofBits .f32 0x7F800000#32 : EReal) = ⊤ := by simp [Ideal.ofBits, Ideal.ieee]

theorem distN_of_lt (A B : (⟨2, ![16384, 3]⟩ : Shape).Idx → EReal) (p q : Fin 16384) :
    distN A B p.val q.val = sqdF A B p q := by
  unfold distN; rw [dif_pos ⟨p.isLt, q.isLt⟩]

end Cert.Chamfer

end
-- ==== Proof.Invariant.lean ====
/-
  What the accumulators hold after every grid point, by induction along the sweep.

  After point `n` the row accumulator is `rowState D n` and the column accumulator `colState D n` (their meaning is in the
  module that defines them), `D` the squared-distance matrix of the two argument arrays; at the last point of a tile row
  the row output's staging buffer holds the clamped roots of the row accumulator, at the last point of the grid the column
  output's those of the column accumulator. Each case of the body is the same step; they differ in whether an accumulator
  was reset first (then it reads +∞, the minimum over nothing) and in which outputs are written.
-/
import proofs.«126038_j36369783063040_2_alg».proof.Proof.Pieces
import proofs.«126038_j36369783063040_2_alg».proof.Proof.Blocks
import proofs.«126038_j36369783063040_2_alg».proof.Proof.Accum
import proofs.«126038_j36369783063040_2_alg».proof.Proof.Dist

set_option maxRecDepth 16384

noncomputable section

namespace Cert.Chamfer

open Idealize.ShloMosaic Idealize.ShloMosaic.Tactic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-- The squared-distance matrix of the two argument arrays as the kernel finds them. -/
def DD : ℕ → ℕ → EReal :=
  distN (m ((c : Thread nD τ).loc main_arg0)) (m ((c : Thread nD τ).loc main_arg1))

/-- The zero the roots are clamped at. -/
abbrev zeroW : EReal := Ideal.ofBits .f32 0x00000000#32

/-- The column offset the body computes at point `t` is `1024 (t % 16)`. -/
theorem off_facts : ∀ t : Fin cfg0.N, k0_off1 (grid0.coords t) = ![0, 1024 * (t.val % 16)] :=
  (by decide +kernel : ∀ t : Fin grid0.N, _)

/-- The tile at point `t` is the `1024 × 1024` block of the distance matrix at tile row `t / 16`, tile column `t % 16`. -/
theorem tile_eq (t : Fin cfg0.N) (r cc : Fin 1024) :
    tileEntry (iblk m c 0 t) (iblk m c 1 t) r cc
      = DD m c (1024 * (t.val / 16) + r.val) (1024 * (t.val % 16) + cc.val) := by
  have e := distN_of_lt (m ((c : Thread nD τ).loc main_arg0)) (m ((c : Thread nD τ).loc main_arg1)) (rowIdx t r) (colIdx t cc)
  refine Eq.trans ?_ e.symm
  unfold tileEntry sqdF
  rw [iblk0_apply m c t r 0, iblk0_apply m c t r 1, iblk0_apply m c t r 2,
    show iblk m c 1 t (ix2 0 cc) = _ from iblk1_apply m c t 0 cc,
    show iblk m c 1 t (ix2 1 cc) = _ from iblk1_apply m c t 1 cc,
    show iblk m c 1 t (ix2 2 cc) = _ from iblk1_apply m c t 2 cc]

theorem rowTileMin_eq (t : Fin cfg0.N) (r : Fin 1024) :
    rowTileMin (iblk m c 0 t) (iblk m c 1 t) r = tileRowMin (DD m c) t.val r.val := by
  unfold rowTileMin tileRowMin
  rw [← inf_univ_fin 1024 (fun cc => DD m c (1024 * (t.val / 16) + r.val) (1024 * (t.val % 16) + cc))]
  exact Finset.inf_congr rfl fun cc _ => tile_eq m c t r cc

theorem colTileMin_eq (t : Fin cfg0.N) (cc : Fin 1024) :
    colTileMin (iblk m c 0 t) (iblk m c 1 t) cc = tileColMin (DD m c) t.val cc.val := by
  unfold colTileMin tileColMin
  rw [← inf_univ_fin 1024 (fun r => DD m c (1024 * (t.val / 16) + r) (1024 * (t.val % 16) + cc.val))]
  exact Finset.inf_congr rfl fun r _ => tile_eq m c t r cc

/-- The row step: from the minimum over the columns before the tile to the minimum through the tile. -/
theorem rowNew_eq (t : Fin cfg0.N) (prev : Vec Ideal S1024x1 .f32)
    (hprev : ∀ y : S1024x1.Idx, prev y = rowBefore (DD m c) t.val (y 0).val) (y : S1024x1.Idx) :
    rowNew (iblk m c 0 t) (iblk m c 1 t) prev y = rowState (DD m c) t.val (y 0).val := by
  unfold rowNew
  rw [hprev y]
  exact (congrArg (min _) (rowTileMin_eq m c t (y 0))).trans (rowState_step _ _ _).symm

/-- The column step: under the tile the earlier tile rows' minimum takes the tile's in; elsewhere nothing changes. -/
theorem colNew_eq (t : Fin cfg0.N) (prev : Vec Ideal S1x16384 .f32)
    (hin : ∀ y : S1x16384.Idx, 1024 * (t.val % 16) ≤ (y 1).val → (y 1).val < 1024 * (t.val % 16 + 1) →
      prev y = partInf (fun p => DD m c p (y 1).val) (1024 * (t.val / 16)))
    (hout : ∀ y : S1x16384.Idx, ((y 1).val < 1024 * (t.val % 16) ∨ 1024 * (t.val % 16 + 1) ≤ (y 1).val) →
      prev y = colState (DD m c) t.val (y 1).val) (y : S1x16384.Idx) :
    colNew (t.val % 16) (iblk m c 0 t) (iblk m c 1 t) prev y = colState (DD m c) t.val (y 1).val := by
  unfold colNew
  by_cases h : 1024 * (t.val % 16) ≤ (y 1).val ∧ (y 1).val < 1024 * (t.val % 16) + 1024
  · rw [dif_pos h, hin y h.1 (by omega)]
    exact (congrArg (min _) (colTileMin_eq m c t _)).trans (colState_step_in _ _ _ h.1 (by omega)).symm
  · rw [dif_neg h]; exact hout y (by omega)

/-- What the four carried buffers hold after point `n`. -/
def Inv (n : ℕ) (h : n < cfg0.N) : Prop :=
  (∀ y : S1024x1.Idx, (outsAt0 (F := Ideal) m c n h).2.2.1 y = rowState (DD m c) n (y 0).val) ∧
  (∀ y : S1x16384.Idx, (outsAt0 (F := Ideal) m c n h).2.2.2 y = colState (DD m c) n (y 1).val) ∧
  (n % 16 = 15 → ∀ y : S1024x1.Idx, (outsAt0 (F := Ideal) m c n h).1 y = clampSqrt zeroW (rowState (DD m c) n (y 0).val)) ∧
  (n % 256 = 255 → ∀ y : S1x16384.Idx, (outsAt0 (F := Ideal) m c n h).2.1 y = clampSqrt zeroW (colState (DD m c) n (y 1).val))

theorem inv : ∀ (n : ℕ) (h : n < cfg0.N), Inv m c n h := by
  intro n
  induction n using Nat.strong_induction_on with
  | _ n ih =>
    intro h
    have hN : cfg0.N = 256 := N_0
    have hoff : k0_off1 (grid0.coords ⟨n, h⟩) = ![0, 1024 * (n % 16)] := off_facts ⟨n, h⟩
    have hlt1 : ∀ y : S1x16384.Idx, (y 1).val < 16384 := fun y => (y 1).isLt
    have prevRow : ¬ n % 16 = 0 → ∀ y : S1024x1.Idx, (outsAt0 m c (n - 1) (Nat.lt_of_le_of_lt (Nat.sub_le _ _) h)).2.2.1 y = rowBefore (DD m c) n (y 0).val := fun h1 y => by
      rw [(ih (n - 1) (by omega) (by omega)).1 y, rowBefore_prev _ _ _ h1]
    have prevColIn : 0 < n → ∀ y : S1x16384.Idx, 1024 * (n % 16) ≤ (y 1).val → (y 1).val < 1024 * (n % 16 + 1) →
        (outsAt0 m c (n - 1) (Nat.lt_of_le_of_lt (Nat.sub_le _ _) h)).2.2.2 y = partInf (fun p => DD m c p (y 1).val) (1024 * (n / 16)) := fun hn y h1 h2 => by
      rw [(ih (n - 1) (by omega) (by omega)).2.1 y, colState_prev_in _ _ _ hn h1 h2]
    have prevColOut : 0 < n → ∀ y : S1x16384.Idx, ((y 1).val < 1024 * (n % 16) ∨ 1024 * (n % 16 + 1) ≤ (y 1).val) →
        (outsAt0 m c (n - 1) (Nat.lt_of_le_of_lt (Nat.sub_le _ _) h)).2.2.2 y = colState (DD m c) n (y 1).val := fun hn y ho => by
      rw [(ih (n - 1) (by omega) (by omega)).2.1 y, colState_prev_out _ _ _ hn (hlt1 y) ho]
    have resetRow : n % 16 = 0 → ∀ y : S1024x1.Idx, k0_pay6 (F := Ideal) y = rowBefore (DD m c) n (y 0).val :=
      fun h1 y => (pay6_apply y).trans (rowBefore_start _ _ _ h1).symm
    unfold Inv
    by_cases h0 : n % 256 = 0
    · -- the first point: both accumulators reset
      have h1 : n % 16 = 0 := by omega
      have h2 : ¬ n % 16 = 15 := by omega
      have h3 : ¬ n % 256 = 255 := by omega
      have hn0 : n = 0 := by omega
      rw [outsAt0_A m c ⟨n, h⟩ h0 h1 h2 h3]
      dsimp only
      refine ⟨fun y => ?_, fun y => ?_, fun h' => absurd h' h2, fun h' => absurd h' h3⟩
      · refine (congrFun (rowA c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ _ _ (iblk m c 0 ⟨n, h⟩) (iblk m c 1 ⟨n, h⟩)) y).trans ?_
        exact rowNew_eq m c ⟨n, h⟩ _ (resetRow h1) y
      · refine (colA c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ _ _ (iblk m c 0 ⟨n, h⟩) (iblk m c 1 ⟨n, h⟩) (n % 16) hoff y).trans ?_
        refine colNew_eq m c ⟨n, h⟩ _ (fun y _ _ => ?_) (fun y ho => ?_) y
        · refine (pay5_apply y).trans ?_
          show (⊤ : EReal) = partInf (fun p => DD m c p (y 1).val) (1024 * (n / 16))
          rw [hn0]; exact (colBefore_zero _ _).symm
        · refine (pay5_apply y).trans ?_
          show (⊤ : EReal) = colState (DD m c) n (y 1).val
          have ho' : (y 1).val < 1024 * (n % 16) ∨ 1024 * (n % 16 + 1) ≤ (y 1).val := ho
          rw [hn0]; exact (colState_zero_out _ _ (by omega)).symm
    · have hn : 0 < n := by omega
      by_cases h1 : n % 16 = 0
      · -- the first point of a later tile row: the row accumulator reset
        have h2 : ¬ n % 16 = 15 := by omega
        have h3 : ¬ n % 256 = 255 := by omega
        rw [outsAt0_D m c ⟨n, h⟩ h0 h1 h2 h3]
        dsimp only
        refine ⟨fun y => ?_, fun y => ?_, fun h' => absurd h' h2, fun h' => absurd h' h3⟩
        · refine (congrFun (rowD c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ _ _ (iblk m c 0 ⟨n, h⟩) (iblk m c 1 ⟨n, h⟩) (outsAt0 m c (n - 1) (Nat.lt_of_le_of_lt (Nat.sub_le _ _) h)).2.2.2) y).trans ?_
          exact rowNew_eq m c ⟨n, h⟩ _ (resetRow h1) y
        · refine (colD c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ _ _ (iblk m c 0 ⟨n, h⟩) (iblk m c 1 ⟨n, h⟩) (outsAt0 m c (n - 1) (Nat.lt_of_le_of_lt (Nat.sub_le _ _) h)).2.2.2 (n % 16) hoff y).trans ?_
          exact colNew_eq m c ⟨n, h⟩ _ (fun y h1 h2 => prevColIn hn y h1 h2) (fun y ho => prevColOut hn y ho) y
      · by_cases h2 : n % 16 = 15
        · by_cases h3 : n % 256 = 255
          · -- the last point: both outputs written
            rw [outsAt0_E m c ⟨n, h⟩ h0 h1 h2 h3]
            dsimp only
            refine ⟨fun y => ?_, fun y => ?_, fun _ y => ?_, fun _ y => ?_⟩
            · refine (congrFun (rowE c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ _ _ (iblk m c 0 ⟨n, h⟩) (iblk m c 1 ⟨n, h⟩) (outsAt0 m c (n - 1) (Nat.lt_of_le_of_lt (Nat.sub_le _ _) h)).2.2.1 (outsAt0 m c (n - 1) (Nat.lt_of_le_of_lt (Nat.sub_le _ _) h)).2.2.2) y).trans ?_
              exact rowNew_eq m c ⟨n, h⟩ _ (prevRow h1) y
            · refine (colE c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ _ _ (iblk m c 0 ⟨n, h⟩) (iblk m c 1 ⟨n, h⟩) (outsAt0 m c (n - 1) (Nat.lt_of_le_of_lt (Nat.sub_le _ _) h)).2.2.1 (outsAt0 m c (n - 1) (Nat.lt_of_le_of_lt (Nat.sub_le _ _) h)).2.2.2 (n % 16) hoff y).trans ?_
              exact colNew_eq m c ⟨n, h⟩ _ (fun y h1 h2 => prevColIn hn y h1 h2) (fun y ho => prevColOut hn y ho) y
            · refine (outRowE c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ _ _ (iblk m c 0 ⟨n, h⟩) (iblk m c 1 ⟨n, h⟩) (outsAt0 m c (n - 1) (Nat.lt_of_le_of_lt (Nat.sub_le _ _) h)).2.2.1 (outsAt0 m c (n - 1) (Nat.lt_of_le_of_lt (Nat.sub_le _ _) h)).2.2.2 y).trans (congrArg (clampSqrt zeroW) ?_)
              exact rowNew_eq m c ⟨n, h⟩ _ (prevRow h1) y
            · refine (outColE c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ _ _ (iblk m c 0 ⟨n, h⟩) (iblk m c 1 ⟨n, h⟩) (outsAt0 m c (n - 1) (Nat.lt_of_le_of_lt (Nat.sub_le _ _) h)).2.2.1 (outsAt0 m c (n - 1) (Nat.lt_of_le_of_lt (Nat.sub_le _ _) h)).2.2.2 (n % 16) hoff y).trans (congrArg (clampSqrt zeroW) ?_)
              exact colNew_eq m c ⟨n, h⟩ _ (fun y h1 h2 => prevColIn hn y h1 h2) (fun y ho => prevColOut hn y ho) y
          · -- the last point of a tile row: the row output written
            rw [outsAt0_C m c ⟨n, h⟩ h0 h1 h2 h3]
            dsimp only
            refine ⟨fun y => ?_, fun y => ?_, fun _ y => ?_, fun h' => absurd h' h3⟩
            · refine (congrFun (rowC c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ _ _ (iblk m c 0 ⟨n, h⟩) (iblk m c 1 ⟨n, h⟩) (outsAt0 m c (n - 1) (Nat.lt_of_le_of_lt (Nat.sub_le _ _) h)).2.2.1 (outsAt0 m c (n - 1) (Nat.lt_of_le_of_lt (Nat.sub_le _ _) h)).2.2.2) y).trans ?_
              exact rowNew_eq m c ⟨n, h⟩ _ (prevRow h1) y
            · refine (colC c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ _ _ (iblk m c 0 ⟨n, h⟩) (iblk m c 1 ⟨n, h⟩) (outsAt0 m c (n - 1) (Nat.lt_of_le_of_lt (Nat.sub_le _ _) h)).2.2.1 (outsAt0 m c (n - 1) (Nat.lt_of_le_of_lt (Nat.sub_le _ _) h)).2.2.2 (n % 16) hoff y).trans ?_
              exact colNew_eq m c ⟨n, h⟩ _ (fun y h1 h2 => prevColIn hn y h1 h2) (fun y ho => prevColOut hn y ho) y
            · refine (outRowC c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ _ _ (iblk m c 0 ⟨n, h⟩) (iblk m c 1 ⟨n, h⟩) (outsAt0 m c (n - 1) (Nat.lt_of_le_of_lt (Nat.sub_le _ _) h)).2.2.1 (outsAt0 m c (n - 1) (Nat.lt_of_le_of_lt (Nat.sub_le _ _) h)).2.2.2 y).trans (congrArg (clampSqrt zeroW) ?_)
              exact rowNew_eq m c ⟨n, h⟩ _ (prevRow h1) y
        · -- a middle point
          have h3 : ¬ n % 256 = 255 := by omega
          rw [outsAt0_B m c ⟨n, h⟩ h0 h1 h2 h3]
          dsimp only
          refine ⟨fun y => ?_, fun y => ?_, fun h' => absurd h' h2, fun h' => absurd h' h3⟩
          · refine (congrFun (rowB c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ _ _ (iblk m c 0 ⟨n, h⟩) (iblk m c 1 ⟨n, h⟩) (outsAt0 m c (n - 1) (Nat.lt_of_le_of_lt (Nat.sub_le _ _) h)).2.2.1 (outsAt0 m c (n - 1) (Nat.lt_of_le_of_lt (Nat.sub_le _ _) h)).2.2.2) y).trans ?_
            exact rowNew_eq m c ⟨n, h⟩ _ (prevRow h1) y
          · refine (colB c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ _ _ (iblk m c 0 ⟨n, h⟩) (iblk m c 1 ⟨n, h⟩) (outsAt0 m c (n - 1) (Nat.lt_of_le_of_lt (Nat.sub_le _ _) h)).2.2.1 (outsAt0 m c (n - 1) (Nat.lt_of_le_of_lt (Nat.sub_le _ _) h)).2.2.2 (n % 16) hoff y).trans ?_
            exact colNew_eq m c ⟨n, h⟩ _ (fun y h1 h2 => prevColIn hn y h1 h2) (fun y ho => prevColOut hn y ho) y

end Cert.Chamfer

end
-- ==== Proof.Tail.lean ====
/-
  The last lines both programs share: the two vectors of nearest-neighbour distances (16384 each) joined end to end,
  summed from zero, and divided by 32768 — their mean. Stated once over the literal shapes, the shape facts as arguments, so
  that each program supplies its own witnesses of the same facts.
-/
import Idealize.ShloMosaic.PureOps.Ideal
import Idealize.ShloMosaic.PureOps

noncomputable section

namespace Cert.Chamfer

open Idealize.ShloMosaic

/-- The mean of the two vectors' 32768 entries, as the host computes it. -/
def tailMean (u v : (⟨1, ![16384]⟩ : Shape).Idx → EReal)
    (hc : Shape.Concatenates [(⟨1, ![16384]⟩ : Shape), (⟨1, ![16384]⟩ : Shape)] (⟨1, ![32768]⟩ : Shape) 0)
    (hr : (⟨1, ![32768]⟩ : Shape).ReducesTo [0] (⟨0, ![]⟩ : Shape)) (hu : 0 < (⟨0, ![]⟩ : Shape).numel) :
    (⟨0, ![]⟩ : Shape).Idx → EReal :=
  Host.divf (F := Ideal) (φ := .f32)
    (Host.reduceAdd (F := Ideal) (φ := .f32)
      (concatenate (⟨1, ![32768]⟩ : Shape) 0 [⟨(⟨1, ![16384]⟩ : Shape), u⟩, ⟨(⟨1, ![16384]⟩ : Shape), v⟩] hc)
      (constant (F := Ideal) (⟨0, ![]⟩ : Shape) .f32 0x00000000#32) hr hu)
    (constant (F := Ideal) (⟨0, ![]⟩ : Shape) .f32 0x47000000#32)

end Cert.Chamfer

end
-- ==== Proof.LibSqueeze.lean ====
/-
  A column squeezed to a vector, read at coordinates: an `[a, 1]` array cast to `[a]` reads, at `i`, the column at `(i, 0)`
  — what a kernel's `out[:, 0]` of a keepdims column is on the host. (The row form `[1, a] → [a]` is the library's
  `shapeCast_1a_a_apply`.)
-/
import Idealize.ShloMosaic.Lib.ValueIdx
import Idealize.ShloMosaic.Lib.Pipeline.Value

namespace Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.Final.lean ====
/-
  The two output arrays after the run, and the kernel's result.

  The row output's block `i` is written back once, at the last point of tile row `i`, when the row accumulator holds the
  minima over every column: so the array ends, at row `p`, at the clamped root of the minimum of `D p q` over all `q`. The
  column output's one block is written back at the last point of the grid: at column `q`, the clamped root of the minimum
  of `D p q` over all `p`. The host then squeezes both to vectors and takes the mean of their 32768 entries.
-/
import proofs.«126038_j36369783063040_2_alg».proof.Proof.Invariant
import proofs.«126038_j36369783063040_2_alg».proof.Proof.Tail
import proofs.«126038_j36369783063040_2_alg».proof.Proof.LibSqueeze
import Idealize.ShloMosaic.Lib.StableHlo.Run

set_option maxRecDepth 16384

noncomputable section

namespace Cert.Chamfer

open Idealize.ShloMosaic Idealize.ShloMosaic.Tactic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (c : Dev nD)

/-- The row output array after the run: nearest-b distance of every a-point. -/
def GA : S16384x1.Idx → EReal := fun y => clampSqrt zeroW (partInf (DD m c (y 0).val) 16384)

/-- The column output array after the run: nearest-a distance of every b-point. -/
def GB : S1x16384.Idx → EReal := fun y => clampSqrt zeroW (partInf (fun p => DD m c p (y 1).val) 16384)

theorem GA_apply (y : S16384x1.Idx) : GA m c y = clampSqrt zeroW (partInf (DD m c (y 0).val) 16384) := rfl

theorem GB_apply (y : S1x16384.Idx) : GB m c y = clampSqrt zeroW (partInf (fun p => DD m c p (y 1).val) 16384) := rfl

attribute [irreducible] GA GB

/-- The output windows' index maps over the grid: the row output moves with the tile row, the column output never moves. -/
theorem idx_out : ∀ t : Fin cfg0.N, win0_2.index t (0 : Fin 2) = t.val / 16 ∧ win0_2.index t (1 : Fin 2) = 0
    ∧ win0_3.index t (0 : Fin 2) = 0 ∧ win0_3.index t (1 : Fin 2) = 0 :=
  (by decide +kernel : ∀ t : Fin grid0.N, _)

/-- What a write-back of the row output writes is its block of `GA`. -/
theorem flushedA (t : Fin cfg0.N) (hf : (cfg0.win 2).flush t = true) :
    (dats m 0 c).flushed 2 t = ((cfg0.win 2).blk t).view.read (Elt Ideal) (GA m c) := by
  have h15 : t.val % 16 = 15 := (flush0_2 t).mp hf
  show (cfg0.win 2).cut (grid0.coords t) ((dats m 0 c).after 2 t) = _
  rw [after0_2]
  funext j
  rw [View.read_apply]
  show (outsAt0 m c t.val t.isLt).1 _ = GA m c _
  rw [(inv m c t.val t.isLt).2.2.1 h15 _, rowState_last _ _ _ h15, GA_apply]
  refine congrArg (fun k => clampSqrt zeroW (partInf (DD m c k) 16384)) ?_
  show 1024 * (t.val / 16) + (j 0).val = win0_2.index t 0 * 1024 + 1 * (j 0).val
  rw [(idx_out t).1]; omega

/-- What the one write-back of the column output writes is `GB`. -/
theorem flushedB (t : Fin cfg0.N) (hf : (cfg0.win 3).flush t = true) :
    (dats m 0 c).flushed 3 t = ((cfg0.win 3).blk t).view.read (Elt Ideal) (GB m c) := by
  have h255 : t.val % 256 = 255 := (flush0_3 t).mp hf
  have hN : cfg0.N = 256 := N_0
  have ht : t.val = 255 := by have := t.isLt; omega
  show (cfg0.win 3).cut (grid0.coords t) ((dats m 0 c).after 3 t) = _
  rw [after0_3]
  funext j
  rw [View.read_apply]
  show (outsAt0 m c t.val t.isLt).2.1 _ = GB m c _
  rw [(inv m c t.val t.isLt).2.2.2 h255 _, GB_apply]
  have hy : (((cfg0.win 3).blk t).view.emb j 1).val < 16384 := (((cfg0.win 3).blk t).view.emb j 1).isLt
  have e : (((cfg0.win 3).blk t).view.emb j 1).val = (j 1).val := by
    show win0_3.index t 1 * 16384 + 1 * (j 1).val = (j 1).val
    rw [(idx_out t).2.2.2]; omega
  show clampSqrt zeroW (colState (DD m c) t.val (j 1).val) = _
  rw [← e, ht, colState_last _ _ hy]

theorem mem_blkA (t : Fin cfg0.N) (i : S16384x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v2_0).slice (win0_2.rect t)).set ↔ _
  rw [View.set_slice_whole, Rect.mem_set_unit]
  exact Iff.rfl

theorem mem_blkB (t : Fin cfg0.N) (i : S1x16384.Idx) :
    i ∈ ((cfg0.win 3).blk t).view.set ↔ ∀ a : Fin 2, win0_3.index t a * S1x16384.size a ≤ (i a).val
      ∧ (i a).val < win0_3.index t a * S1x16384.size a + S1x16384.size a := by
  show i ∈ ((View.whole main_v2_1).slice (win0_3.rect t)).set ↔ _
  rw [View.set_slice_whole, Rect.mem_set_unit]
  exact Iff.rfl

/-- Every row of the row output lies in the block written back at the end of its tile row. -/
theorem coverA (i : S16384x1.Idx) : ∃ t : Fin cfg0.N, (cfg0.win 2).flush t = true ∧ i ∈ ((cfg0.win 2).blk t).view.set := by
  have hN : cfg0.N = 256 := N_0
  have hi0 : (i 0).val < 16384 := (i 0).isLt
  have hi1 : (i 1).val < 1 := (i 1).isLt
  have hlt : 16 * ((i 0).val / 1024) + 15 < cfg0.N := by omega
  refine ⟨⟨16 * ((i 0).val / 1024) + 15, hlt⟩, (flush0_2 _).mpr (by show (16 * ((i 0).val / 1024) + 15) % 16 = 15; omega), ?_⟩
  rw [mem_blkA]
  obtain ⟨e0, e1, -, -⟩ := idx_out ⟨16 * ((i 0).val / 1024) + 15, hlt⟩
  have e0' : win0_2.index ⟨16 * ((i 0).val / 1024) + 15, hlt⟩ 0 = (i 0).val / 1024 := by
    rw [e0]; show (16 * ((i 0).val / 1024) + 15) / 16 = (i 0).val / 1024; omega
  intro a
  match a with
  | ⟨0, _⟩ =>
    show win0_2.index ⟨16 * ((i 0).val / 1024) + 15, hlt⟩ 0 * 1024 ≤ (i 0).val
      ∧ (i 0).val < win0_2.index ⟨16 * ((i 0).val / 1024) + 15, hlt⟩ 0 * 1024 + 1024
    rw [e0']; omega
  | ⟨1, _⟩ =>
    show win0_2.index ⟨16 * ((i 0).val / 1024) + 15, hlt⟩ 1 * 1 ≤ (i 1).val
      ∧ (i 1).val < win0_2.index ⟨16 * ((i 0).val / 1024) + 15, hlt⟩ 1 * 1 + 1
    rw [e1]; omega

/-- Every column of the column output lies in the one block written back at the last point. -/
theorem coverB (i : S1x16384.Idx) : ∃ t : Fin cfg0.N, (cfg0.win 3).flush t = true ∧ i ∈ ((cfg0.win 3).blk t).view.set := by
  have hN : cfg0.N = 256 := N_0
  have hi0 : (i 0).val < 1 := (i 0).isLt
  have hi1 : (i 1).val < 16384 := (i 1).isLt
  have hlt : 255 < cfg0.N := by omega
  refine ⟨⟨255, hlt⟩, (flush0_3 _).mpr (by show 255 % 256 = 255; omega), ?_⟩
  rw [mem_blkB]
  obtain ⟨-, -, e2, e3⟩ := idx_out ⟨255, hlt⟩
  intro a
  match a with
  | ⟨0, _⟩ =>
    show win0_3.index ⟨255, hlt⟩ 0 * 1 ≤ (i 0).val ∧ (i 0).val < win0_3.index ⟨255, hlt⟩ 0 * 1 + 1
    rw [e2]; omega
  | ⟨1, _⟩ =>
    show win0_3.index ⟨255, hlt⟩ 1 * 16384 ≤ (i 1).val ∧ (i 1).val < win0_3.index ⟨255, hlt⟩ 1 * 16384 + 16384
    rw [e3]; omega

/-- The row output array ends at `GA`. -/
theorem finalA : (dats m 0 c).arrAt 2 cfg0.N = GA m c :=
  (dats m 0 c).arrAt_eq_of_cover 2 (GA m c) (fun t hf => flushedA m c t hf) coverA

/-- The column output array ends at `GB`. -/
theorem finalB : (dats m 0 c).arrAt 3 cfg0.N = GB m c :=
  (dats m 0 c).arrAt_eq_of_cover 3 (GB m c) (fun t hf => flushedB m c t hf) coverB

/-- The kernel's result: the mean of the two squeezed output arrays. -/
def kernelResult : S_.Idx → EReal :=
  tailMean (shapeCast S16384 (GA m c) shapeCasts_S16384x1_S16384) (shapeCast S16384 (GB m c) shapeCasts_S1x16384_S16384)
    concatenates_S16384_S16384_S32768_d0 reducesTo_S32768_S_d0 h_S_

/-- What the lines after the region leave in the result buffer. -/
theorem result_eq : Pipeline.afterTail₀ cfgs (dats m) 0 (V0 m) [hostOps1] c main_v7 = kernelResult m c := by
  unfold Pipeline.afterTail₀
  show StableHlo.after hostOps1 _ (Proc.devRef .tc main_v7) = _
  after_results
  have eA : Pipeline.withArrays (cfgs 0).spec c (V0 m c) (fun w => (dats m 0 c).arrAt w (cfgs 0).N) (Proc.devRef .tc main_v2_0) = GA m c :=
    (Pipeline.withArrays_arr spec0 launch0.win.arr_inj c _ _ 2).trans (finalA m c)
  have eB : Pipeline.withArrays (cfgs 0).spec c (V0 m c) (fun w => (dats m 0 c).arrAt w (cfgs 0).N) (Proc.devRef .tc main_v2_1) = GB m c :=
    (Pipeline.withArrays_arr spec0 launch0.win.arr_inj c _ _ 3).trans (finalB m c)
  rw [eA, eB]
  rfl

/-- The kernel's run, read: the result buffer at the mean of the two output arrays' entries, the arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v7) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v7 (Pipeline.mem_restRefs_of main_v7 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.Chamfer

end
-- ==== Proof.Reference.lean ====
/-
  The reference, read at coordinates.

  Its distance matrix entry `(p, q)` is `√(max (|a_p|² + |b_q|² − 2 (a_p · b_q)) 0)` — the norms as `0 + Σ_k`, the dot product as
  `Σ_k` over the three coordinates, which on the extended reals are the three-term sums written out —; its two
  minimum-reductions from +∞ are infima over a row and over a column of that matrix; and since the clamped root commutes
  with infima, they are the clamped roots of the infima of the squared distances.
-/
import proofs.«126038_j36369783063040_2_alg».proof.Proof.Gen.ReferenceIdeal.Read
import proofs.«126038_j36369783063040_2_alg».proof.Proof.Dist
import proofs.«126038_j36369783063040_2_alg».proof.Proof.Tail
import Idealize.ShloMosaic.PureOps.Ideal.Laws

set_option maxRecDepth 16384

noncomputable section

namespace Cert.Chamfer.Ref

open Idealize.ShloMosaic Idealize.ShloMosaic.ValueIdx Cert.Chamfer
open Cert.ReferenceIdeal Cert.ReferenceIdeal.Gen Cert.ReferenceIdeal.Read

variable (A B : (⟨S16384x3, .f32⟩ : BufTy).Contents (Elt Ideal))

/-- The reference's distance at `(p, q)`: the clamped root of the squared distance. -/
theorem v15_apply (p q : Fin 16384) :
    val_main_v15 (F := Ideal) A B (ix2 p q) = clampSqrt (Ideal.ofBits .f32 0x00000000#32) (sqdF A B p q) := by
  have hA : ∀ k : Fin 3, idx_main_v1 (idx_main_v4 (idx_main_v6 (ix2 p q))) k = ix2 p k := fun k =>
    funext fun a => Fin.ext (by match a with | ⟨0, _⟩ => rfl | ⟨1, _⟩ => rfl)
  have hB : ∀ k : Fin 3, idx_main_v3 (idx_main_v5 (idx_main_v7 (ix2 p q))) k = ix2 q k := fun k =>
    funext fun a => Fin.ext (by match a with | ⟨0, _⟩ => rfl | ⟨1, _⟩ => rfl)
  have hL : ∀ k : Fin 3, lidx_main_v9 (ix2 p q) k = ix2 p k := fun k =>
    funext fun a => Fin.ext (by match a with | ⟨0, _⟩ => rfl | ⟨1, _⟩ => rfl)
  have hR : ∀ k : Fin 3, ridx_main_v9 (ix2 p q) k = ix2 q k := fun k =>
    funext fun a => Fin.ext (by match a with | ⟨0, _⟩ => rfl | ⟨1, _⟩ => rfl)
  rw [val_main_v15_apply, val_main_v14_apply, val_main_v12_apply, val_main_v13_apply, val_main_v8_apply, val_main_v11_apply,
    val_main_v10_apply, val_main_v9_apply, val_main_v6_apply, val_main_v7_apply, val_main_v4_apply, val_main_v5_apply,
    val_main_v1_apply, val_main_v3_apply]
  simp only [val_main_v0_apply, val_main_v2_apply, val_main_cst_apply, val_main_cst_0_apply, val_main_cst_1_apply,
    val_main_cst_2_apply, hA, hB, hL, hR, Fin.sum_univ_three, Ideal.mulf_def, Ideal.addf_def, Ideal.subf_def,
    Ideal.maximumf_def, Ideal.hostUnary_sqrt_def, Ideal.ofBits_def, Ideal.ofBits_zero_f32, zero_add]
  rfl

/-- Putting column `k` back into the reduced index `p` of the row reduction gives `(p, k)`. -/
theorem lift_d1 (h : S16384x16384.Reduces [1] S16384) (p : Fin 16384) (k : Fin (S16384x16384.size 1)) :
    h.lift (ix1 p) k = ix2 p (⟨k.val, k.isLt⟩ : Fin 16384) := by
  funext a; apply Fin.ext
  fin_cases a <;> rfl

/-- Putting row `k` back into the reduced index `q` of the column reduction gives `(k, q)`. -/
theorem lift_d0 (h : S16384x16384.Reduces [0] S16384) (q : Fin 16384) (k : Fin (S16384x16384.size 0)) :
    h.lift (ix1 q) k = ix2 (⟨k.val, k.isLt⟩ : Fin 16384) q := by
  funext a; apply Fin.ext
  fin_cases a <;> rfl

/-- The reference's nearest-b distance of a-point `p`: the clamped root of the minimum squared distance over all b-points. -/
theorem v16_apply (p : Fin 16384) :
    val_main_v16 (F := Ideal) A B (ix1 p)
      = clampSqrt (Ideal.ofBits .f32 0x00000000#32) (partInf (distN A B p.val) 16384) := by
  have h : S16384x16384.Reduces [1] S16384 := by decide
  unfold val_main_v16
  rw [Host.reduce_eq_fold_single FloatOps.minimumf _ _ reducesTo_S16384x16384_S16384_d1 h h_S_]
  show Finset.fold min (Ideal.ofBits .f32 0x7F800000#32 : EReal) _ _ = _
  rw [ofBits_top, fold_min_top]
  unfold partInf
  rw [clampSqrt_inf, ← inf_univ_fin 16384 (fun q => clampSqrt (Ideal.ofBits .f32 0x00000000#32) (distN A B p.val q))]
  refine Finset.inf_congr rfl fun q _ => ?_
  show val_main_v15 (F := Ideal) A B (h.lift (ix1 p) q) = _
  rw [lift_d1, v15_apply]
  exact congrArg (clampSqrt _) (distN_of_lt A B p ⟨q.val, q.isLt⟩).symm

/-- The reference's nearest-a distance of b-point `q`: the clamped root of the minimum squared distance over all a-points. -/
theorem v17_apply (q : Fin 16384) :
    val_main_v17 (F := Ideal) A B (ix1 q)
      = clampSqrt (Ideal.ofBits .f32 0x00000000#32) (partInf (fun p => distN A B p q.val) 16384) := by
  have h : S16384x16384.Reduces [0] S16384 := by decide
  unfold val_main_v17
  rw [Host.reduce_eq_fold_single FloatOps.minimumf _ _ reducesTo_S16384x16384_S16384_d0 h h_S_]
  show Finset.fold min (Ideal.ofBits .f32 0x7F800000#32 : EReal) _ _ = _
  rw [ofBits_top, fold_min_top]
  unfold partInf
  rw [clampSqrt_inf, ← inf_univ_fin 16384 (fun p => clampSqrt (Ideal.ofBits .f32 0x00000000#32) (distN A B p q.val))]
  refine Finset.inf_congr rfl fun p _ => ?_
  show val_main_v15 (F := Ideal) A B (h.lift (ix1 q) p) = _
  rw [lift_d0, v15_apply]
  exact congrArg (clampSqrt _) (distN_of_lt A B ⟨p.val, p.isLt⟩ q).symm

/-- The reference's result is the mean of its two distance vectors' entries. -/
theorem result_eq :
    val_main_v20 (F := Ideal) A B
      = tailMean (val_main_v16 (F := Ideal) A B) (val_main_v17 (F := Ideal) A B)
          concatenates_S16384_S16384_S32768_d0 reducesTo_S32768_S_d0 h_S_ := rfl

end Cert.Chamfer.Ref

end
-- ==== Proof.lean ====
/-
  Chamfer distance, one fused pass against the textbook form.

  For two clouds of 16384 points in three coordinates, both programs return the mean, over all 32768 points, of the distance
  to the nearest point of the other cloud, the squared distance taken as `|a|² + |b|² − 2 a·b` and clamped at zero before
  the root. The reference builds the whole 16384 × 16384 distance matrix and reduces it twice. The kernel sweeps the matrix in
  1024 × 1024 tiles, never stores it, keeps a running minimum of the SQUARED distances per row (reset at each tile row) and
  per column (kept across the whole sweep), and takes the clamped root only of the finished minima.

  At the extended reals the two agree exactly, with no appeal to the inputs being finite:
    * the norms and the dot product are three-term sums on both sides (the reference's `0 + Σ` written out);
    * a minimum over 16384 entries is the minimum of the 16 tile minima, from +∞ (the minimum over nothing);
    * `x ↦ √(max x 0)` is monotone and sends +∞ to +∞, so it commutes with every finite minimum;
    * the last lines — squeeze, concatenate, sum, divide — are the same operations on both sides.
  The ideal pass rewrote nothing, so the kernel's idealization is its own text read at the extended reals.
-/
import proofs.«126038_j36369783063040_2_alg».proof.Defs
import proofs.«126038_j36369783063040_2_alg».proof.Proof.Gen.Kernel
import proofs.«126038_j36369783063040_2_alg».proof.Proof.Gen.Kernel.Frame
import proofs.«126038_j36369783063040_2_alg».proof.Proof.Gen.KernelIdeal
import proofs.«126038_j36369783063040_2_alg».proof.Proof.Gen.KernelIdeal.Frame
import proofs.«126038_j36369783063040_2_alg».proof.Proof.Gen.ReferenceIdeal
import proofs.«126038_j36369783063040_2_alg».proof.Proof.Gen.Pre_finite_inputs
import proofs.«126038_j36369783063040_2_alg».proof.Proof.Gen.ReferenceIdeal.Run
import proofs.«126038_j36369783063040_2_alg».proof.Proof.Gen.ReferenceIdeal.Read
import proofs.«126038_j36369783063040_2_alg».proof.Proof.Final
import proofs.«126038_j36369783063040_2_alg».proof.Proof.Reference
import Idealize.ShloMosaic.Adequacy
import Idealize.ShloMosaic.Init

noncomputable section

namespace Cert.Chamfer

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-- The row output squeezed to a vector is the reference's vector of nearest-b distances. -/
theorem squeezeA :
    shapeCast S16384 (GA m c) shapeCasts_S16384x1_S16384
      = Cert.ReferenceIdeal.Read.val_main_v16 (F := Ideal) (m ((c : Thread nD τ).loc main_arg0)) (m ((c : Thread nD τ).loc main_arg1)) := by
  funext i
  obtain ⟨p, rfl⟩ : ∃ p : Fin 16384, i = ix1 p := ⟨i 0, eq_ix1 i⟩
  rw [shapeCast_a1_a_apply (a := 16384), GA_apply, Ref.v16_apply]
  rfl

/-- The column output squeezed to a vector is the reference's vector of nearest-a distances. -/
theorem squeezeB :
    shapeCast S16384 (GB m c) shapeCasts_S1x16384_S16384
      = Cert.ReferenceIdeal.Read.val_main_v17 (F := Ideal) (m ((c : Thread nD τ).loc main_arg0)) (m ((c : Thread nD τ).loc main_arg1)) := by
  funext i
  obtain ⟨q, rfl⟩ : ∃ q : Fin 16384, i = ix1 q := ⟨i 0, eq_ix1 i⟩
  rw [shapeCast_1a_a_apply (a := 16384), GB_apply, Ref.v17_apply]
  rfl

/-- The kernel's result is the reference's, as functions of the same two arrays. -/
theorem bridge :
    kernelResult m c
      = Cert.ReferenceIdeal.Read.val_main_v20 (F := Ideal) (m ((c : Thread nD τ).loc main_arg0)) (m ((c : Thread nD τ).loc main_arg1)) := by
  unfold kernelResult
  rw [squeezeA, squeezeB, Ref.result_eq]

end Cert.Chamfer

namespace Cert.Proof

open Idealize.ShloMosaic Idealize.SL.Sem

/-- The word-level kernel runs and leaves its arguments alone. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From the same two arrays both programs end at the same extended real. -/
theorem algebraic : Cert.algebraic_KernelIdeal_ReferenceIdeal := by
  intro m ρ m' ρ' _ hagree
  refine ⟨fun c => Cert.Chamfer.kernelResult m c, Cert.Chamfer.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2]
  exact (Cert.Chamfer.bridge m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
